-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_v53) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x16x1024x128 : Shape := ⟨4, ![1, 16, 1024, 128]⟩
abbrev S1x16x2048x128 : Shape := ⟨4, ![1, 16, 2048, 128]⟩
abbrev S_ : Shape := ⟨0, ![]⟩

class Facts : Prop where
  bcast_S_S1x16x1024x128 : S_.BroadcastsInDim S1x16x1024x128 (![] : Fin 0 → Fin S1x16x1024x128.rank)
  reducesTo_S1x16x1024x128_S_d0_1_2_3 : S1x16x1024x128.ReducesTo [0, 1, 2, 3] S_
  h_S_ : 0 < S_.numel
  bcast_S_S1x16x2048x128 : S_.BroadcastsInDim S1x16x2048x128 (![] : Fin 0 → Fin S1x16x2048x128.rank)
  reducesTo_S1x16x2048x128_S_d0_1_2_3 : S1x16x2048x128.ReducesTo [0, 1, 2, 3] S_

variable [Facts]

def fn_part1 {F : FTy → Type} [FloatOps F] (main_arg4 : FVec F S1x16x2048x128 .f32) (main_v13 : IVec S_ 1) (main_v16 : IVec S1x16x2048x128 1) : IVec S_ 1 :=
  let main_c_5 : IVec S_ 1 := constantI S_ 1 1#1
  let main_v17 : IVec S_ 1 := (fun x v => Host.reduce IntOp.andi x v reducesTo_S1x16x2048x128_S_d0_1_2_3 h_S_) main_v16 main_c_5
  let main_v18 : IVec S_ 1 := andi main_v13 main_v17
  let main_v19 : FVec F S1x16x2048x128 .f32 := Host.absf main_arg4
  let main_cst_6 : FVec F S_ .f32 := constant S_ .f32 0x7F800000#32
  let main_v20 : FVec F S1x16x2048x128 .f32 := broadcastInDim S1x16x2048x128 ![] bcast_S_S1x16x2048x128 main_cst_6
  let main_v21 : IVec S1x16x2048x128 1 := cmpf .olt main_v19 main_v20
  let main_c_7 : IVec S_ 1 := constantI S_ 1 1#1
  let main_v22 : IVec S_ 1 := (fun x v => Host.reduce IntOp.andi x v reducesTo_S1x16x2048x128_S_d0_1_2_3 h_S_) main_v21 main_c_7
  let main_v23 : IVec S_ 1 := andi main_v18 main_v22
  main_v23

def fn {F : FTy → Type} [FloatOps F] (main_arg0 : FVec F S1x16x1024x128 .f32) (main_arg1 : FVec F S1x16x2048x128 .f32) (main_arg2 : FVec F S1x16x2048x128 .f32) (main_arg3 : FVec F S1x16x2048x128 .f32) (main_arg4 : FVec F S1x16x2048x128 .f32) : IVec S_ 1 :=
  let main_v0 : FVec F S1x16x1024x128 .f32 := Host.absf main_arg0
  let main_cst : FVec F S_ .f32 := constant S_ .f32 0x7F800000#32
  let main_v1 : FVec F S1x16x1024x128 .f32 := broadcastInDim S1x16x1024x128 ![] bcast_S_S1x16x1024x128 main_cst
  let main_v2 : IVec S1x16x1024x128 1 := cmpf .olt main_v0 main_v1
  let main_c : IVec S_ 1 := constantI S_ 1 1#1
  let main_v3 : IVec S_ 1 := (fun x v => Host.reduce IntOp.andi x v reducesTo_S1x16x1024x128_S_d0_1_2_3 h_S_) main_v2 main_c
  let main_v4 : FVec F S1x16x2048x128 .f32 := Host.absf main_arg1
  let main_cst_0 : FVec F S_ .f32 := constant S_ .f32 0x7F800000#32
  let main_v5 : FVec F S1x16x2048x128 .f32 := broadcastInDim S1x16x2048x128 ![] bcast_S_S1x16x2048x128 main_cst_0
  let main_v6 : IVec S1x16x2048x128 1 := cmpf .olt main_v4 main_v5
  let main_c_1 : IVec S_ 1 := constantI S_ 1 1#1
  let main_v7 : IVec S_ 1 := (fun x v => Host.reduce IntOp.andi x v reducesTo_S1x16x2048x128_S_d0_1_2_3 h_S_) main_v6 main_c_1
  let main_v8 : IVec S_ 1 := andi main_v3 main_v7
  let main_v9 : FVec F S1x16x2048x128 .f32 := Host.absf main_arg2
  let main_cst_2 : FVec F S_ .f32 := constant S_ .f32 0x7F800000#32
  let main_v10 : FVec F S1x16x2048x128 .f32 := broadcastInDim S1x16x2048x128 ![] bcast_S_S1x16x2048x128 main_cst_2
  let main_v11 : IVec S1x16x2048x128 1 := cmpf .olt main_v9 main_v10
  let main_c_3 : IVec S_ 1 := constantI S_ 1 1#1
  let main_v12 : IVec S_ 1 := (fun x v => Host.reduce IntOp.andi x v reducesTo_S1x16x2048x128_S_d0_1_2_3 h_S_) main_v11 main_c_3
  let main_v13 : IVec S_ 1 := andi main_v8 main_v12
  let main_v14 : FVec F S1x16x2048x128 .f32 := Host.absf main_arg3
  let main_cst_4 : FVec F S_ .f32 := constant S_ .f32 0x7F800000#32
  let main_v15 : FVec F S1x16x2048x128 .f32 := broadcastInDim S1x16x2048x128 ![] bcast_S_S1x16x2048x128 main_cst_4
  let main_v16 : IVec S1x16x2048x128 1 := cmpf .olt main_v14 main_v15
  fn_part1 (F := F) main_arg4 main_v13 main_v16
-- ==== Kernel.lean ====
abbrev S1x16x1024x128 : Shape := ⟨4, ![1, 16, 1024, 128]⟩
abbrev S1x16x2048x128 : Shape := ⟨4, ![1, 16, 2048, 128]⟩
abbrev S1x16x1024x1 : Shape := ⟨4, ![1, 16, 1024, 1]⟩
abbrev S1x1x512x128 : Shape := ⟨4, ![1, 1, 512, 128]⟩
abbrev S1x1x2048x128 : Shape := ⟨4, ![1, 1, 2048, 128]⟩
abbrev S1x1x512x1 : Shape := ⟨4, ![1, 1, 512, 1]⟩
abbrev S512x128 : Shape := ⟨2, ![512, 128]⟩
abbrev S2048x128 : Shape := ⟨2, ![2048, 128]⟩
abbrev S128x2048 : Shape := ⟨2, ![128, 2048]⟩
abbrev S512x2048 : Shape := ⟨2, ![512, 2048]⟩
abbrev S512 : Shape := ⟨1, ![512]⟩
abbrev S512x1 : Shape := ⟨2, ![512, 1]⟩
abbrev S1x16x1024 : Shape := ⟨3, ![1, 16, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1x16x1024x128, .f32⟩
  | .hbm, ⟨1, _⟩ => ⟨S1x16x2048x128, .f32⟩
  | .hbm, ⟨2, _⟩ => ⟨S1x16x2048x128, .f32⟩
  | .hbm, ⟨3, _⟩ => ⟨S1x16x2048x128, .f32⟩
  | .hbm, ⟨4, _⟩ => ⟨S1x16x2048x128, .f32⟩
  | .hbm, ⟨5, _⟩ => ⟨S1x16x1024x128, .f32⟩
  | .hbm, ⟨6, _⟩ => ⟨S1x16x1024x1, .f32⟩
  | .hbm, ⟨7, _⟩ => ⟨S1x16x1024, .f32⟩
  | .local _ .vmem, ⟨0, _⟩ => ⟨S1x1x512x128, .f32⟩
  | .local _ .vmem, ⟨1, _⟩ => ⟨S1x1x512x128, .f32⟩
  | .local _ .vmem, ⟨2, _⟩ => ⟨S1x1x2048x128, .f32⟩
  | .local _ .vmem, ⟨3, _⟩ => ⟨S1x1x2048x128, .f32⟩
  | .local _ .vmem, ⟨4, _⟩ => ⟨S1x1x2048x128, .f32⟩
  | .local _ .vmem, ⟨5, _⟩ => ⟨S1x1x2048x128, .f32⟩
  | .local _ .vmem, ⟨6, _⟩ => ⟨S1x1x2048x128, .f32⟩
  | .local _ .vmem, ⟨7, _⟩ => ⟨S1x1x2048x128, .f32⟩
  | .local _ .vmem, ⟨8, _⟩ => ⟨S1x1x2048x128, .f32⟩
  | .local _ .vmem, ⟨9, _⟩ => ⟨S1x1x2048x128, .f32⟩
  | .local _ .vmem, ⟨10, _⟩ => ⟨S1x1x512x128, .f32⟩
  | .local _ .vmem, ⟨11, _⟩ => ⟨S1x1x512x128, .f32⟩
  | .local _ .vmem, ⟨12, _⟩ => ⟨S1x1x512x1, .f32⟩
  | .local _ .vmem, ⟨13, _⟩ => ⟨S1x1x512x1, .f32⟩
  | _, _ => ⟨S1x16x1024x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 2], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

abbrev stage0_0 : Fin 2 → Memref sig .tc .vmem S1x1x512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  inb_S1x1x512x128_S1x1x512x128_0_0_0_0 : ∀ a, (![0, 0, 0, 0] : Fin 4 → Nat) a + S1x1x512x128.size a ≤ S1x1x512x128.size a
  h_S1x1x512x128 : 0 < S1x1x512x128.numel
  shapeCasts_S1x1x512x128_S512x128 : S1x1x512x128.ShapeCasts S512x128
  bitsLt_bf16_f32 : FTy.bits .bf16 < FTy.bits .f32
  inb_S1x1x2048x128_S1x1x2048x128_0_0_0_0 : ∀ a, (![0, 0, 0, 0] : Fin 4 → Nat) a + S1x1x2048x128.size a ≤ S1x1x2048x128.size a
  h_S1x1x2048x128 : 0 < S1x1x2048x128.numel
  shapeCasts_S1x1x2048x128_S2048x128 : S1x1x2048x128.ShapeCasts S2048x128
  transposes_S2048x128_p1_0_S128x2048 : S2048x128.Transposes [1, 0] S128x2048
  reduces_S512x2048_S512 : S512x2048.Reduces [1] S512
  shapeCasts_S512_S512x1 : S512.ShapeCasts S512x1
  broadcasts_S512x1_S512x2048 : S512x1.Broadcasts S512x2048
  broadcasts_S512x1_S512x128 : S512x1.Broadcasts S512x128
  shapeCasts_S512x128_S1x1x512x128 : S512x128.ShapeCasts S1x1x512x128
  inb_S1x1x512x1_S1x1x512x1_0_0_0_0 : ∀ a, (![0, 0, 0, 0] : Fin 4 → Nat) a + S1x1x512x1.size a ≤ S1x1x512x1.size a
  h_S1x1x512x1 : 0 < S1x1x512x1.numel
  shapeCasts_S1x1x512x1_S512x1 : S1x1x512x1.ShapeCasts S512x1
  shapeCasts_S512x1_S1x1x512x1 : S512x1.ShapeCasts S1x1x512x1
  shapeCasts_S1x16x1024x1_S1x16x1024 : S1x16x1024x1.ShapeCasts S1x16x1024
  dot_S512x128_S128x2048_S512x2048_1_0_0_1_n_n_wf : DotDims.WF S512x128 S128x2048 S512x2048 [1] [0] [0] [1] [] []
  dot_S512x2048_S2048x128_S512x128_1_0_0_1_n_n_wf : DotDims.WF S512x2048 S2048x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x128.size a ≤ S1x16x1024x128.size a
  hwx0_0 : ∀ i : grid0.Coords, EltTy.bits .f32 = 32 ∨ (Rect.block (s := S1x16x1024x128) S1x1x512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x2048x128.size a ≤ S1x16x2048x128.size a
  hwx0_1 : ∀ i : grid0.Coords, EltTy.bits .f32 = 32 ∨ (Rect.block (s := S1x16x2048x128) S1x1x2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x2048x128.size a ≤ S1x16x2048x128.size a
  hwx0_2 : ∀ i : grid0.Coords, EltTy.bits .f32 = 32 ∨ (Rect.block (s := S1x16x2048x128) S1x1x2048x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048x128.size a ≤ S1x16x2048x128.size a
  hwx0_3 : ∀ i : grid0.Coords, EltTy.bits .f32 = 32 ∨ (Rect.block (s := S1x16x2048x128) S1x1x2048x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048x128.size a ≤ S1x16x2048x128.size a
  hwx0_4 : ∀ i : grid0.Coords, EltTy.bits .f32 = 32 ∨ (Rect.block (s := S1x16x2048x128) S1x1x2048x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512x128.size a ≤ S1x16x1024x128.size a
  hwx0_5 : ∀ i : grid0.Coords, EltTy.bits .f32 = 32 ∨ (Rect.block (s := S1x16x1024x128) S1x1x512x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x512x1.size a ≤ S1x16x1024x1.size a
  hwx0_6 : ∀ i : grid0.Coords, EltTy.bits .f32 = 32 ∨ (Rect.block (s := S1x16x1024x1) S1x1x512x1.size (cc0_transform_6 i) (hinb0_6 i)).WholeWords (EltTy.packing .f32)

variable [Facts₀]

def dot_S512x128_S128x2048_S512x2048_1_0_0_1_n_n : DotDims S512x128 S128x2048 S512x2048 where
  lhsContracting := [1]
  rhsContracting := [0]
  lhsNonContracting := [0]
  rhsNonContracting := [1]
  lhsBatch := []
  rhsBatch := []
  wf := dot_S512x128_S128x2048_S512x2048_1_0_0_1_n_n_wf
def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf

abbrev win0_0 : Pipeline.Window sig grid0 :=
  Pipeline.Window.ofSpec (Memref.whole main_arg0) S1x1x512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1x2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x1x2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x1x2048x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S1x1x2048x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_0) S1x1x512x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_1) S1x1x512x1.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1x16x1024x128 : Shape := ⟨4, ![1, 16, 1024, 128]⟩
abbrev S1x16x2048x128 : Shape := ⟨4, ![1, 16, 2048, 128]⟩
abbrev S1x16x1024x2048 : Shape := ⟨4, ![1, 16, 1024, 2048]⟩
abbrev S_ : Shape := ⟨0, ![]⟩
abbrev S1x16x1024 : Shape := ⟨3, ![1, 16, 1024]⟩
abbrev S1x16x1024x1 : Shape := ⟨4, ![1, 16, 1024, 1]⟩

abbrev nBuf : Space → Nat
  | .hbm => 65
  | .vmem => 0
  | .smem => 0
  | _ => 0

abbrev bufTy : (tb : Table) → Fin (tcTables nBuf tb) → BufTy
  | .hbm, ⟨0, _⟩ => ⟨S1x16x1024x128, .f32⟩
  | .hbm, ⟨1, _⟩ => ⟨S1x16x2048x128, .f32⟩
  | .hbm, ⟨2, _⟩ => ⟨S1x16x2048x128, .f32⟩
  | .hbm, ⟨3, _⟩ => ⟨S1x16x2048x128, .f32⟩
  | .hbm, ⟨4, _⟩ => ⟨S1x16x2048x128, .f32⟩
  | .hbm, ⟨5, _⟩ => ⟨S1x16x1024x2048, .f32⟩
  | .hbm, ⟨6, _⟩ => ⟨S_, .f32⟩
  | .hbm, ⟨7, _⟩ => ⟨S1x16x1024x2048, .f32⟩
  | .hbm, ⟨8, _⟩ => ⟨S1x16x1024x2048, .f32⟩
  | .hbm, ⟨9, _⟩ => ⟨S_, .f32⟩
  | .hbm, ⟨10, _⟩ => ⟨S1x16x1024, .f32⟩
  | .hbm, ⟨11, _⟩ => ⟨S1x16x1024x1, .f32⟩
  | .hbm, ⟨12, _⟩ => ⟨S1x16x1024x2048, .f32⟩
  | .hbm, ⟨13, _⟩ => ⟨S1x16x1024x2048, .f32⟩
  | .hbm, ⟨14, _⟩ => ⟨S1x16x1024x2048, .f32⟩
  | .hbm, ⟨15, _⟩ => ⟨S_, .f32⟩
  | .hbm, ⟨16, _⟩ => ⟨S1x16x1024, .f32⟩
  | .hbm, ⟨17, _⟩ => ⟨S1x16x1024x1, .f32⟩
  | .hbm, ⟨18, _⟩ => ⟨S1x16x1024x1, .f32⟩
  | .hbm, ⟨19, _⟩ => ⟨S1x16x1024x1, .f32⟩
  | .hbm, ⟨20, _⟩ => ⟨S1x16x1024, .f32⟩
  | .hbm, ⟨21, _⟩ => ⟨S1x16x1024x2048, .f32⟩
  | .hbm, ⟨22, _⟩ => ⟨S1x16x1024x2048, .f32⟩
  | .hbm, ⟨23, _⟩ => ⟨S1x16x1024x128, .f32⟩
  | .hbm, ⟨24, _⟩ => ⟨S1x16x1024x2048, .f32⟩
  | .hbm, ⟨25, _⟩ => ⟨S_, .f32⟩
  | .hbm, ⟨26, _⟩ => ⟨S1x16x1024x2048, .f32⟩
  | .hbm, ⟨27, _⟩ => ⟨S1x16x1024x2048, .f32⟩
  | .hbm, ⟨28, _⟩ => ⟨S_, .f32⟩
  | .hbm, ⟨29, _⟩ => ⟨S1x16x1024, .f32⟩
  | .hbm, ⟨30, _⟩ => ⟨S1x16x1024x1, .f32⟩
  | .hbm, ⟨31, _⟩ => ⟨S1x16x1024x2048, .f32⟩
  | .hbm, ⟨32, _⟩ => ⟨S1x16x1024x2048, .f32⟩
  | .hbm, ⟨33, _⟩ => ⟨S1x16x1024x2048, .f32⟩
  | .hbm, ⟨34, _⟩ => ⟨S_, .f32⟩
  | .hbm, ⟨35, _⟩ => ⟨S1x16x1024, .f32⟩
  | .hbm, ⟨36, _⟩ => ⟨S1x16x1024x1, .f32⟩
  | .hbm, ⟨37, _⟩ => ⟨S1x16x1024x1, .f32⟩
  | .hbm, ⟨38, _⟩ => ⟨S1x16x1024x1, .f32⟩
  | .hbm, ⟨39, _⟩ => ⟨S1x16x1024, .f32⟩
  | .hbm, ⟨40, _⟩ => ⟨S1x16x1024x2048, .f32⟩
  | .hbm, ⟨41, _⟩ => ⟨S1x16x1024x2048, .f32⟩
  | .hbm, ⟨42, _⟩ => ⟨S1x16x1024x128, .f32⟩
  | .hbm, ⟨43, _⟩ => ⟨S1x16x1024x1, .f32⟩
  | .hbm, ⟨44, _⟩ => ⟨S1x16x1024x1, .f32⟩
  | .hbm, ⟨45, _⟩ => ⟨S1x16x1024x1, .f32⟩
  | .hbm, ⟨46, _⟩ => ⟨S1x16x1024x1, .f32⟩
  | .hbm, ⟨47, _⟩ => ⟨S1x16x1024x1, .i1⟩
  | .hbm, ⟨48, _⟩ => ⟨S1x16x1024x1, .f32⟩
  | .hbm, ⟨49, _⟩ => ⟨S1x16x1024x1, .f32⟩
  | .hbm, ⟨50, _⟩ => ⟨S1x16x1024x1, .f32⟩
  | .hbm, ⟨51, _⟩ => ⟨S1x16x1024x1, .f32⟩
  | .hbm, ⟨52, _⟩ => ⟨S1x16x1024x1, .f32⟩
  | .hbm, ⟨53, _⟩ => ⟨S1x16x1024x1, .f32⟩
  | .hbm, ⟨54, _⟩ => ⟨S1x16x1024x1, .f32⟩
  | .hbm, ⟨55, _⟩ => ⟨S1x16x1024x1, .f32⟩
  | .hbm, ⟨56, _⟩ => ⟨S1x16x1024x1, .f32⟩
  | .hbm, ⟨57, _⟩ => ⟨S1x16x1024x1, .f32⟩
  | .hbm, ⟨58, _⟩ => ⟨S1x16x1024x1, .f32⟩
  | .hbm, ⟨59, _⟩ => ⟨S1x16x1024x128, .f32⟩
  | .hbm, ⟨60, _⟩ => ⟨S1x16x1024x128, .f32⟩
  | .hbm, ⟨61, _⟩ => ⟨S1x16x1024x128, .f32⟩
  | .hbm, ⟨62, _⟩ => ⟨S1x16x1024x128, .f32⟩
  | .hbm, ⟨63, _⟩ => ⟨S1x16x1024x128, .f32⟩
  | .hbm, ⟨64, _⟩ => ⟨S1x16x1024, .f32⟩
  | _, _ => ⟨S1x16x1024x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]

class Facts₀ : Prop where
  bcast_S_S1x16x1024x2048 : S_.BroadcastsInDim S1x16x1024x2048 (![] : Fin 0 → Fin S1x16x1024x2048.rank)
  reducesTo_S1x16x1024x2048_S1x16x1024_d3 : S1x16x1024x2048.ReducesTo [3] S1x16x1024
  h_S_ : 0 < S_.numel
  bcast_S1x16x1024_S1x16x1024x1_0_1_2 : S1x16x1024.BroadcastsInDim S1x16x1024x1 (![0, 1, 2] : Fin 3 → Fin S1x16x1024x1.rank)
  bcast_S1x16x1024x1_S1x16x1024x2048_0_1_2_3 : S1x16x1024x1.BroadcastsInDim S1x16x1024x2048 (![0, 1, 2, 3] : Fin 4 → Fin S1x16x1024x2048.rank)
  shapeCasts_S1x16x1024x1_S1x16x1024 : S1x16x1024x1.ShapeCasts S1x16x1024
  bcast_S1x16x1024x1_S1x16x1024x128_0_1_2_3 : S1x16x1024x1.BroadcastsInDim S1x16x1024x128 (![0, 1, 2, 3] : Fin 4 → Fin S1x16x1024x128.rank)
  dot_S1x16x1024x128_S1x16x2048x128_S1x16x1024x2048_3_3_2_2_01_01_wf : DotDims.WF S1x16x1024x128 S1x16x2048x128 S1x16x1024x2048 [3] [3] [2] [2] [0, 1] [0, 1]
  dot_S1x16x1024x2048_S1x16x2048x128_S1x16x1024x128_3_2_2_3_01_01_wf : DotDims.WF S1x16x1024x2048 S1x16x2048x128 S1x16x1024x128 [3] [2] [2] [3] [0, 1] [0, 1]

variable [Facts₀]

def dot_S1x16x1024x128_S1x16x2048x128_S1x16x1024x2048_3_3_2_2_01_01 : DotDims S1x16x1024x128 S1x16x2048x128 S1x16x1024x2048 where
  lhsContracting := [3]
  rhsContracting := [3]
  lhsNonContracting := [2]
  rhsNonContracting := [2]
  lhsBatch := [0, 1]
  rhsBatch := [0, 1]
  wf := dot_S1x16x1024x128_S1x16x2048x128_S1x16x1024x2048_3_3_2_2_01_01_wf
def dot_S1x16x1024x2048_S1x16x2048x128_S1x16x1024x128_3_2_2_3_01_01 : DotDims S1x16x1024x2048 S1x16x2048x128 S1x16x1024x128 where
  lhsContracting := [3]
  rhsContracting := [2]
  lhsNonContracting := [2]
  rhsNonContracting := [3]
  lhsBatch := [0, 1]
  rhsBatch := [0, 1]
  wf := dot_S1x16x1024x2048_S1x16x2048x128_S1x16x1024x128_3_2_2_3_01_01_wf

class Facts : Prop extends Facts₀ where

variable [Facts]
-- ==== Proof.RowSoftmax.lean ====
/-
  The mathematics of one query row of a two-stream attention, on the extended reals.

  For a row of scaled scores `s : Fin 2048 → EReal` write `μ = max_k s k`, `e k = exp (s k - μ)`, `σ = Σ_k e k` and
  `lse = μ + log σ`. For two streams A and B with value columns `vA`, `vB` and `L = logaddexp lse_A lse_B` there are two
  ways to write the merged output entry:

    unnormalised : (Σ_k e_A k · vA k) · exp (μ_A - L) + (Σ_k e_B k · vB k) · exp (μ_B - L)
    normalised   : (Σ_k (e_A k / σ_A) · vA k) · exp (lse_A - L) + (Σ_k (e_B k / σ_B) · vB k) · exp (lse_B - L)

  They agree whenever the scores and the values are real numbers: then `μ` is real, every `e k` is a positive real, `σ` is
  a positive real, `exp (μ + log σ - L) = exp (μ - L) · σ` for EVERY extended real `L`, and the factor `σ` cancels the
  `1 / σ` taken out of the sum. Nothing is asked of `L`.
-/
import Idealize.ShloMosaic.PureOps.Ideal
import Idealize.ShloMosaic.PureOps.Ideal.Laws
import Idealize.ShloMosaic.Lib.ValueIdx

noncomputable section

open Idealize.ShloMosaic

namespace Cert.RowSoftmax

/-- The largest score of a row: the fold of `max` from `-∞` (the f32 word `0xFF800000`). -/
def rowMax (s : Fin 2048 → EReal) : EReal :=
  (Finset.univ : Finset (Fin 2048)).fold max (Ideal.ofBits .f32 0xFF800000#32) s

/-- The shifted exponentials `exp (s k - max s)`. -/
def rowExp (s : Fin 2048 → EReal) (k : Fin 2048) : EReal := Ideal.exp (s k - rowMax s)

/-- Their sum, the softmax denominator. -/
def rowSum (s : Fin 2048 → EReal) : EReal := ∑ k, rowExp s k

/-- The log-sum-exp of the row, `max s + log (Σ exp (s - max s))`. -/
def rowLse (s : Fin 2048 → EReal) : EReal := rowMax s + Ideal.log (rowSum s)

/-- `logaddexp a b` in the stable form `max a b + log1p (exp (-|a - b|))`, with `|x| = max x (-x)`. -/
def lae (a b : EReal) : EReal := max a b + Ideal.log1p (Ideal.exp (-(max (a - b) (-(a - b)))))

/-- A row of scaled scores: the dot product of the query row with each key row, times the scale `c`. -/
def score (c : EReal) (q : Fin 128 → EReal) (key : Fin 2048 → Fin 128 → EReal) : Fin 2048 → EReal :=
  fun k => (∑ d, q d * key k d) * c

/-- One stream's share of a merged output entry with the normaliser DEFERRED: `(Σ_k e k · v k) · exp (μ - L)`. -/
def shareDeferred (s v : Fin 2048 → EReal) (L : EReal) : EReal :=
  (∑ k, rowExp s k * v k) * Ideal.exp (rowMax s - L)

/-- The same share with the probabilities normalised first: `(Σ_k (e k / σ) · v k) · exp (lse - L)`. -/
def shareNormalised (s v : Fin 2048 → EReal) (L : EReal) : EReal :=
  (∑ k, Ideal.div (rowExp s k) (rowSum s) * v k) * Ideal.exp (rowLse s - L)

/-- The merged output entry, deferred form. -/
def mergedDeferred (sA sB vA vB : Fin 2048 → EReal) : EReal :=
  shareDeferred sA vA (lae (rowLse sA) (rowLse sB)) + shareDeferred sB vB (lae (rowLse sA) (rowLse sB))

/-- The merged output entry, normalised form. -/
def mergedNormalised (sA sB vA vB : Fin 2048 → EReal) : EReal :=
  shareNormalised sA vA (lae (rowLse sA) (rowLse sB)) + shareNormalised sB vB (lae (rowLse sA) (rowLse sB))

/-! ## The comparison that guards `logaddexp`

  `logaddexp` selects `a + b` where `a - b` differs from itself and the stable form elsewhere. On the extended reals
  nothing differs from itself, whichever of the two "not equal" predicates is printed. -/

theorem cmp_one_self (x : EReal) : Ideal.cmp .one x x = 0#1 := by simp [Ideal.cmp]
theorem cmp_une_self (x : EReal) : Ideal.cmp .une x x = 0#1 := by simp [Ideal.cmp]

/-- The kernel's printed `logaddexp`: the guard is "ordered and not equal", the exponent `0 - |a - b|`. -/
theorem lae_of_one (a b : EReal) :
    Scalar.select (Ideal.cmp .one (a - b) (a - b)) (a + b)
        (max a b + Ideal.log1p (Ideal.exp (Ideal.ofBits .f32 0x00000000#32 - max (a - b) (-(a - b))))) = lae a b := by
  rw [cmp_one_self, ValueIdx.select_zero, Ideal.ofBits_zero_f32, zero_sub]
  rfl

/-- The host's printed `logaddexp`: the guard is "unordered or not equal", the exponent `-|a - b|`. -/
theorem lae_of_une (a b : EReal) :
    Scalar.select (Ideal.cmp .une (a - b) (a - b)) (a + b)
        (max a b + Ideal.log1p (Ideal.exp (-(max (a - b) (-(a - b)))))) = lae a b := by
  rw [cmp_une_self, ValueIdx.select_zero]
  rfl

/-! ## Real numbers stay real -/

/-- The word `0xFF800000` is `-∞`. -/
theorem negInf_eq : Ideal.ofBits .f32 0xFF800000#32 = (⊥ : EReal) := by
  simp [Ideal.ofBits, Ideal.ieee]

/-- A finite sum of real numbers, taken in the extended reals, is the real sum. -/
theorem coe_sum {ι : Type} (S : Finset ι) (f : ι → ℝ) :
    (∑ k ∈ S, ((f k : ℝ) : EReal)) = ((∑ k ∈ S, f k : ℝ) : EReal) := by
  classical
  refine Finset.induction_on S (by simp) ?_
  intro a S ha ih
  rw [Finset.sum_insert ha, Finset.sum_insert ha, ih, EReal.coe_add]

/-- The maximum of a nonempty finite family of reals, folded from `-∞`, is a real. -/
theorem fold_max_real (s : Fin 2048 → EReal) (hs : ∀ k, ∃ r : ℝ, s k = r) (S : Finset (Fin 2048)) :
    S.Nonempty → ∃ r : ℝ, S.fold max (⊥ : EReal) s = r := by
  classical
  refine Finset.induction_on S (fun h => absurd h Finset.not_nonempty_empty) ?_
  intro a S ha ih _
  rw [Finset.fold_insert ha]
  obtain ⟨ra, hra⟩ := hs a
  rcases S.eq_empty_or_nonempty with rfl | hS
  · exact ⟨ra, by rw [Finset.fold_empty, hra]; exact max_eq_left bot_le⟩
  · obtain ⟨r, hr⟩ := ih hS
    rcases le_total ra r with h | h
    · exact ⟨r, by rw [hra, hr]; exact max_eq_right (EReal.coe_le_coe_iff.mpr h)⟩
    · exact ⟨ra, by rw [hra, hr]; exact max_eq_left (EReal.coe_le_coe_iff.mpr h)⟩

/-- So the largest score of a real row is real. -/
theorem rowMax_real (s : Fin 2048 → EReal) (hs : ∀ k, ∃ r : ℝ, s k = r) : ∃ μ : ℝ, rowMax s = μ := by
  unfold rowMax
  rw [negInf_eq]
  exact fold_max_real s hs Finset.univ ⟨⟨0, by norm_num⟩, Finset.mem_univ _⟩

/-- `exp (x + t) = exp x · exp t` for a real `t` and EVERY extended real `x`: at `-∞` both sides are `0`, at `+∞` both
    are `+∞` (the real factor is positive). -/
theorem exp_add_coe (x : EReal) (t : ℝ) : Ideal.exp (x + (t : EReal)) = Ideal.exp x * ((Real.exp t : ℝ) : EReal) := by
  induction x using EReal.rec with
  | bot => rw [EReal.bot_add, Ideal.exp_bot, zero_mul]
  | top => rw [EReal.top_add_coe, Ideal.exp_top, EReal.top_mul_coe_of_pos (Real.exp_pos t)]
  | coe x => rw [← EReal.coe_add, Ideal.exp_coe, Ideal.exp_coe, Real.exp_add, EReal.coe_mul]

/-! ## The law -/

/-- One stream: normalising the probabilities and weighting by `exp (lse - L)` is weighting the unnormalised sum by
    `exp (μ - L)`, for real scores and values and any `L`. -/
theorem shareNormalised_eq (s v : Fin 2048 → EReal) (hs : ∀ k, ∃ r : ℝ, s k = r) (hv : ∀ k, ∃ r : ℝ, v k = r)
    (L : EReal) : shareNormalised s v L = shareDeferred s v L := by
  choose r hr using hs
  choose w hw using hv
  obtain ⟨μ, hμ⟩ := rowMax_real s (fun k => ⟨r k, hr k⟩)
  -- the shifted exponentials are positive reals
  have he : ∀ k, rowExp s k = ((Real.exp (r k - μ) : ℝ) : EReal) := fun k => by
    unfold rowExp; rw [hμ, hr k, ← EReal.coe_sub, Ideal.exp_coe]
  -- and so is their sum
  have hσpos : 0 < ∑ k : Fin 2048, Real.exp (r k - μ) :=
    Finset.sum_pos (fun k _ => Real.exp_pos _) ⟨⟨0, by norm_num⟩, Finset.mem_univ _⟩
  have hσ : rowSum s = ((∑ k : Fin 2048, Real.exp (r k - μ) : ℝ) : EReal) := by
    unfold rowSum; rw [← coe_sum]; exact Finset.sum_congr rfl fun k _ => he k
  set σ : ℝ := ∑ k : Fin 2048, Real.exp (r k - μ) with hσdef
  have hσne : σ ≠ 0 := ne_of_gt hσpos
  -- the two sums, as reals
  have hnum : (∑ k, rowExp s k * v k) = ((∑ k : Fin 2048, Real.exp (r k - μ) * w k : ℝ) : EReal) := by
    rw [← coe_sum]; exact Finset.sum_congr rfl fun k _ => by rw [he k, hw k, ← EReal.coe_mul]
  have hnorm : (∑ k, Ideal.div (rowExp s k) (rowSum s) * v k)
      = ((∑ k : Fin 2048, Real.exp (r k - μ) * (1 / σ) * w k : ℝ) : EReal) := by
    rw [← coe_sum]
    exact Finset.sum_congr rfl fun k _ => by
      rw [hσ, Ideal.div_coe hσne, he k, hw k, ← EReal.coe_mul, ← EReal.coe_mul]
  -- the weight: exp (μ + log σ - L) = exp (μ - L) · σ
  have hlog : Ideal.log (rowSum s) = ((Real.log σ : ℝ) : EReal) := by
    rw [hσ, Ideal.log_coe, if_neg (not_le.mpr hσpos)]
  have hw' : Ideal.exp (rowLse s - L) = Ideal.exp (rowMax s - L) * ((σ : ℝ) : EReal) := by
    unfold rowLse
    rw [hlog, sub_eq_add_neg, add_right_comm, ← sub_eq_add_neg, exp_add_coe, Real.exp_log hσpos]
  unfold shareNormalised shareDeferred
  rw [hnorm, hnum, hw', mul_comm (Ideal.exp (rowMax s - L)) _, ← mul_assoc, ← EReal.coe_mul]
  congr 2
  rw [Finset.sum_mul]
  exact Finset.sum_congr rfl fun k _ => by field_simp

/-- Both streams: the two forms of the merged entry agree on real scores and values. -/
theorem mergedNormalised_eq (sA sB vA vB : Fin 2048 → EReal) (hsA : ∀ k, ∃ r : ℝ, sA k = r) (hsB : ∀ k, ∃ r : ℝ, sB k = r)
    (hvA : ∀ k, ∃ r : ℝ, vA k = r) (hvB : ∀ k, ∃ r : ℝ, vB k = r) :
    mergedNormalised sA sB vA vB = mergedDeferred sA sB vA vB := by
  unfold mergedNormalised mergedDeferred
  rw [shareNormalised_eq sA vA hsA hvA, shareNormalised_eq sB vB hsB hvB]

/-- A row of scaled scores of real queries and keys, with a real scale, is real. -/
theorem score_real (c : EReal) (q : Fin 128 → EReal) (key : Fin 2048 → Fin 128 → EReal) (hc : ∃ r : ℝ, c = r)
    (hq : ∀ d, ∃ r : ℝ, q d = r) (hk : ∀ k d, ∃ r : ℝ, key k d = r) : ∀ k, ∃ r : ℝ, score c q key k = r := by
  intro k
  obtain ⟨c', hc'⟩ := hc
  choose q' hq' using hq
  choose k' hk' using hk
  refine ⟨(∑ d, q' d * k' k d) * c', ?_⟩
  unfold score
  rw [EReal.coe_mul, ← coe_sum, hc']
  congr 1
  exact Finset.sum_congr rfl fun d _ => by rw [hq' d, hk' k d, ← EReal.coe_mul]

end Cert.RowSoftmax

end
-- ==== Proof.BodyOps.lean ====
/-
  The kernel body's operations that are not pointwise, each read at one index at the exact (extended-real) instance,
  over the literal shapes of this kernel: a [512, 128] query tile, [2048, 128] key and value blocks, [512, 2048] scores.

  * a 4-d block [1, 1, n, m] and its 2-d view [n, m] hold the same entries;
  * a column [512, 1] broadcast along the second axis repeats the column;
  * a transposed [128, 2048] matrix at (d, k) is the [2048, 128] matrix at (k, d);
  * a row maximum / row sum over the second axis of [512, 2048] is the fold of `max` from `-∞` / the sum over `k`;
  * q · kᵀ at (r, k) is `Σ_d q (r, d) · kᵀ (d, k)`, p · v at (r, d) is `Σ_k p (r, k) · v (k, d)`.
-/
import proofs.«129638_j44229573214696_2_alg».proof.Proof.Gen.KernelIdeal
import proofs.«129638_j44229573214696_2_alg».proof.Proof.RowSoftmax
import Idealize.ShloMosaic.Lib.ValueIdx
import Idealize.ShloMosaic.Lib.Pipeline.Value
import Idealize.ShloMosaic.PureOps.Ideal.Laws

noncomputable section

open Idealize.ShloMosaic Idealize.ShloMosaic.ValueIdx Cert.RowSoftmax

namespace Cert.KernelIdeal.BodyOps

open Cert.KernelIdeal

/-! ## Views of a block -/

/-- The 2-d view of a [1, 1, 512, 128] block. -/
theorem view_q (x : S1x1x512x128.Idx → EReal) (h : S1x1x512x128.ShapeCasts S512x128) (r : Fin 512) (d : Fin 128) :
    shapeCast S512x128 x h (ix2 r d) = x (ix4 0 0 r d) :=
  shapeCast_apply x h (ix2 r d) (ix4 0 0 r d) (by
    rw [Shape.rowMajor_val_four, Shape.rowMajor_val_two]
    show ((0 * 1 + 0) * 512 + r.val) * 128 + d.val = r.val * 128 + d.val
    omega)

/-- The 2-d view of a [1, 1, 2048, 128] block. -/
theorem view_kv (x : S1x1x2048x128.Idx → EReal) (h : S1x1x2048x128.ShapeCasts S2048x128) (k : Fin 2048) (d : Fin 128) :
    shapeCast S2048x128 x h (ix2 k d) = x (ix4 0 0 k d) :=
  shapeCast_apply x h (ix2 k d) (ix4 0 0 k d) (by
    rw [Shape.rowMajor_val_four, Shape.rowMajor_val_two]
    show ((0 * 1 + 0) * 2048 + k.val) * 128 + d.val = k.val * 128 + d.val
    omega)

/-- A [512, 128] tile seen as a [1, 1, 512, 128] block. -/
theorem block_out (v : S512x128.Idx → EReal) (h : S512x128.ShapeCasts S1x1x512x128) (a b : Fin 1) (r : Fin 512) (d : Fin 128) :
    shapeCast S1x1x512x128 v h (ix4 a b r d) = v (ix2 r d) :=
  shapeCast_apply v h (ix4 a b r d) (ix2 r d) (by
    rw [Shape.rowMajor_val_four, Shape.rowMajor_val_two]
    show r.val * 128 + d.val = ((a.val * 1 + b.val) * 512 + r.val) * 128 + d.val
    have := a.isLt; have := b.isLt; omega)

/-- A [512, 1] column seen as a [1, 1, 512, 1] block. -/
theorem block_col (v : S512x1.Idx → EReal) (h : S512x1.ShapeCasts S1x1x512x1) (a b : Fin 1) (r : Fin 512) (z z' : Fin 1) :
    shapeCast S1x1x512x1 v h (ix4 a b r z) = v (ix2 r z') :=
  shapeCast_apply v h (ix4 a b r z) (ix2 r z') (by
    rw [Shape.rowMajor_val_four, Shape.rowMajor_val_two]
    show r.val * 1 + z'.val = ((a.val * 1 + b.val) * 512 + r.val) * 1 + z.val
    have := a.isLt; have := b.isLt; have := z.isLt; have := z'.isLt; omega)

/-- A [512] vector seen as a [512, 1] column. -/
theorem col_of_vec (v : S512.Idx → EReal) (h : S512.ShapeCasts S512x1) (r : Fin 512) (z : Fin 1) :
    shapeCast S512x1 v h (ix2 r z) = v (ix1 r) :=
  shapeCast_apply v h (ix2 r z) (ix1 r) (by
    rw [Shape.rowMajor_val_one, Shape.rowMajor_val_two]
    show r.val = r.val * 1 + z.val
    have := z.isLt; omega)

/-! ## Broadcasts of a column -/

theorem bcast_scores (u : S512x1.Idx → EReal) (h : S512x1.Broadcasts S512x2048) (r : Fin 512) (k : Fin 2048) (z : Fin 1) :
    broadcastTo S512x2048 u h (ix2 r k) = u (ix2 r z) :=
  broadcastTo_apply u h (ix2 r k) (ix2 r z) (fun a => by
    match a with
    | ⟨0, _⟩ => show r.val = if (512 : Nat) = 1 then 0 else r.val; rw [if_neg (by decide)]
    | ⟨1, _⟩ => show z.val = if (1 : Nat) = 1 then 0 else k.val; rw [if_pos rfl]; have := z.isLt; omega)

theorem bcast_out (u : S512x1.Idx → EReal) (h : S512x1.Broadcasts S512x128) (r : Fin 512) (d : Fin 128) (z : Fin 1) :
    broadcastTo S512x128 u h (ix2 r d) = u (ix2 r z) :=
  broadcastTo_apply u h (ix2 r d) (ix2 r z) (fun a => by
    match a with
    | ⟨0, _⟩ => show r.val = if (512 : Nat) = 1 then 0 else r.val; rw [if_neg (by decide)]
    | ⟨1, _⟩ => show z.val = if (1 : Nat) = 1 then 0 else d.val; rw [if_pos rfl]; have := z.isLt; omega)

/-! ## The transpose of a key block -/

theorem transpose_kv (x : S2048x128.Idx → EReal) (h : S2048x128.Transposes [1, 0] S128x2048) (d : Fin 128) (k : Fin 2048) :
    transpose S128x2048 [1, 0] x h (ix2 d k) = x (ix2 k d) :=
  transpose_apply [1, 0] x h (ix2 d k) (ix2 k d) (fun b => by
    match b with
    | ⟨0, _⟩ => rfl
    | ⟨1, _⟩ => rfl)

/-! ## Row reductions of the scores -/

/-- The row maximum, as a [512, 1] column, is the fold of `max` from `-∞` over the row. -/
theorem rowmax_col (v : FVec Ideal S512x2048 .f32) (h : S512x2048.Reduces [1] S512) (hc : S512.ShapeCasts S512x1)
    (hφ : FKind.Formats .f32) (hacc : (0xFF800000#32 : BitVec 32) = FKind.maximumf.neutral .f32 hφ) (r : Fin 512) (z : Fin 1) :
    shapeCast S512x1 (multiReduction .maximumf [1] S512 v 0xFF800000#32 h hφ hacc) hc (ix2 r z)
      = rowMax (fun k => v (ix2 r k)) := by
  rw [col_of_vec _ hc r z, Ideal.multiReduction_maximumf_single]
  show (Finset.univ : Finset (Fin 2048)).fold max (Ideal.ofBits .f32 0xFF800000#32) (v ∘ h.lift (ix1 r)) = _
  unfold rowMax
  refine congrArg (fun f => (Finset.univ : Finset (Fin 2048)).fold max (Ideal.ofBits .f32 0xFF800000#32) f) (funext fun k => ?_)
  exact congrArg v (funext fun a => Fin.ext (by match a with | ⟨0, _⟩ => rfl | ⟨1, _⟩ => rfl))

/-- The row sum, as a [512, 1] column, is the sum over the row. -/
theorem rowsum_col (v : FVec Ideal S512x2048 .f32) (h : S512x2048.Reduces [1] S512) (hc : S512.ShapeCasts S512x1)
    (hφ : FKind.Formats .f32) (hacc : (0x00000000#32 : BitVec 32) = FKind.add.neutral .f32 hφ) (r : Fin 512) (z : Fin 1) :
    shapeCast S512x1 (multiReduction .add [1] S512 v 0x00000000#32 h hφ hacc) hc (ix2 r z)
      = ∑ k : Fin 2048, v (ix2 r k) := by
  rw [col_of_vec _ hc r z, Ideal.multiReduction_add_single]
  show ∑ k : Fin 2048, v (h.lift (ix1 r) k) = _
  refine Finset.sum_congr rfl fun k _ => ?_
  exact congrArg v (funext fun a => Fin.ext (by match a with | ⟨0, _⟩ => rfl | ⟨1, _⟩ => rfl))

/-! ## The two matrix products

  Both contract one axis: the operand indices at an output index `(r, c)` and a contraction coordinate `k` are
  `(r, k)` on the left and `(k, c)` on the right, so each product entry is a plain sum over `k`. -/

theorem qk_lhs0 (j : S512x2048.Idx) (q : dot_S512x128_S128x2048_S512x2048_1_0_0_1_n_n.contr.Idx) : (dot_S512x128_S128x2048_S512x2048_1_0_0_1_n_n.lhsIdx j q 0).val = (j 0).val := by
  unfold DotDims.lhsIdx
  rw [dif_neg (show ¬(0 : Fin S512x128.rank) ∈ dot_S512x128_S128x2048_S512x2048_1_0_0_1_n_n.lhsBatch by decide), dif_pos (show (0 : Fin S512x128.rank) ∈ dot_S512x128_S128x2048_S512x2048_1_0_0_1_n_n.lhsNonContracting by decide)]
  rfl
theorem qk_lhs1 (j : S512x2048.Idx) (q : dot_S512x128_S128x2048_S512x2048_1_0_0_1_n_n.contr.Idx) : (dot_S512x128_S128x2048_S512x2048_1_0_0_1_n_n.lhsIdx j q 1).val = (q ⟨0, by decide⟩).val :=
  dot_S512x128_S128x2048_S512x2048_1_0_0_1_n_n.lhsIdx_val_of_single rfl j q
theorem qk_rhs0 (j : S512x2048.Idx) (q : dot_S512x128_S128x2048_S512x2048_1_0_0_1_n_n.contr.Idx) : (dot_S512x128_S128x2048_S512x2048_1_0_0_1_n_n.rhsIdx j q 0).val = (q ⟨0, by decide⟩).val :=
  dot_S512x128_S128x2048_S512x2048_1_0_0_1_n_n.rhsIdx_val_of_single rfl j q
theorem qk_rhs1 (j : S512x2048.Idx) (q : dot_S512x128_S128x2048_S512x2048_1_0_0_1_n_n.contr.Idx) : (dot_S512x128_S128x2048_S512x2048_1_0_0_1_n_n.rhsIdx j q 1).val = (j 1).val := by
  unfold DotDims.rhsIdx
  rw [dif_neg (show ¬(1 : Fin S128x2048.rank) ∈ dot_S512x128_S128x2048_S512x2048_1_0_0_1_n_n.rhsBatch by decide), dif_pos (show (1 : Fin S128x2048.rank) ∈ dot_S512x128_S128x2048_S512x2048_1_0_0_1_n_n.rhsNonContracting by decide)]
  rfl

/-- The query tile times a transposed key block, into zero: `Σ_d a (r, d) · b (d, k)`. -/
theorem qk_apply (a : FVec Ideal S512x128 .bf16) (b : FVec Ideal S128x2048 .bf16) (r : Fin 512) (k : Fin 2048) :
    matmul dot_S512x128_S128x2048_S512x2048_1_0_0_1_n_n none a b (constant S512x2048 .f32 0x00000000#32) (ix2 r k)
      = ∑ d : Fin 128, a (ix2 r d) * b (ix2 d k) := by
  simp only [matmul]
  rw [Ideal.matmul_constant_zero_apply, ← Equiv.sum_comp (contrEquiv1 dot_S512x128_S128x2048_S512x2048_1_0_0_1_n_n 128 rfl rfl).symm]
  refine Finset.sum_congr rfl fun d _ => ?_
  have hd := contrEquiv1_symm_val dot_S512x128_S128x2048_S512x2048_1_0_0_1_n_n 128 rfl rfl d
  have el : dot_S512x128_S128x2048_S512x2048_1_0_0_1_n_n.lhsIdx (ix2 r k) ((contrEquiv1 dot_S512x128_S128x2048_S512x2048_1_0_0_1_n_n 128 rfl rfl).symm d) = ix2 r d := funext fun a => Fin.ext (by
    match a with
    | ⟨0, _⟩ => exact qk_lhs0 _ _
    | ⟨1, _⟩ => exact (qk_lhs1 _ _).trans hd)
  have er : dot_S512x128_S128x2048_S512x2048_1_0_0_1_n_n.rhsIdx (ix2 r k) ((contrEquiv1 dot_S512x128_S128x2048_S512x2048_1_0_0_1_n_n 128 rfl rfl).symm d) = ix2 d k := funext fun a => Fin.ext (by
    match a with
    | ⟨0, _⟩ => exact (qk_rhs0 _ _).trans hd
    | ⟨1, _⟩ => exact qk_rhs1 _ _)
  rw [el, er]

theorem pv_lhs0 (j : S512x128.Idx) (q : dot_S512x2048_S2048x128_S512x128_1_0_0_1_n_n.contr.Idx) : (dot_S512x2048_S2048x128_S512x128_1_0_0_1_n_n.lhsIdx j q 0).val = (j 0).val := by
  unfold DotDims.lhsIdx
  rw [dif_neg (show ¬(0 : Fin S512x2048.rank) ∈ dot_S512x2048_S2048x128_S512x128_1_0_0_1_n_n.lhsBatch by decide), dif_pos (show (0 : Fin S512x2048.rank) ∈ dot_S512x2048_S2048x128_S512x128_1_0_0_1_n_n.lhsNonContracting by decide)]
  rfl
theorem pv_lhs1 (j : S512x128.Idx) (q : dot_S512x2048_S2048x128_S512x128_1_0_0_1_n_n.contr.Idx) : (dot_S512x2048_S2048x128_S512x128_1_0_0_1_n_n.lhsIdx j q 1).val = (q ⟨0, by decide⟩).val :=
  dot_S512x2048_S2048x128_S512x128_1_0_0_1_n_n.lhsIdx_val_of_single rfl j q
theorem pv_rhs0 (j : S512x128.Idx) (q : dot_S512x2048_S2048x128_S512x128_1_0_0_1_n_n.contr.Idx) : (dot_S512x2048_S2048x128_S512x128_1_0_0_1_n_n.rhsIdx j q 0).val = (q ⟨0, by decide⟩).val :=
  dot_S512x2048_S2048x128_S512x128_1_0_0_1_n_n.rhsIdx_val_of_single rfl j q
theorem pv_rhs1 (j : S512x128.Idx) (q : dot_S512x2048_S2048x128_S512x128_1_0_0_1_n_n.contr.Idx) : (dot_S512x2048_S2048x128_S512x128_1_0_0_1_n_n.rhsIdx j q 1).val = (j 1).val := by
  unfold DotDims.rhsIdx
  rw [dif_neg (show ¬(1 : Fin S2048x128.rank) ∈ dot_S512x2048_S2048x128_S512x128_1_0_0_1_n_n.rhsBatch by decide), dif_pos (show (1 : Fin S2048x128.rank) ∈ dot_S512x2048_S2048x128_S512x128_1_0_0_1_n_n.rhsNonContracting by decide)]
  rfl

/-- The exponentials times a value block, into zero: `Σ_k p (r, k) · v (k, d)`. -/
theorem pv_apply (p : FVec Ideal S512x2048 .bf16) (v : FVec Ideal S2048x128 .bf16) (r : Fin 512) (d : Fin 128) :
    matmul dot_S512x2048_S2048x128_S512x128_1_0_0_1_n_n none p v (constant S512x128 .f32 0x00000000#32) (ix2 r d)
      = ∑ k : Fin 2048, p (ix2 r k) * v (ix2 k d) := by
  simp only [matmul]
  rw [Ideal.matmul_constant_zero_apply, ← Equiv.sum_comp (contrEquiv1 dot_S512x2048_S2048x128_S512x128_1_0_0_1_n_n 2048 rfl rfl).symm]
  refine Finset.sum_congr rfl fun k _ => ?_
  have hk := contrEquiv1_symm_val dot_S512x2048_S2048x128_S512x128_1_0_0_1_n_n 2048 rfl rfl k
  have el : dot_S512x2048_S2048x128_S512x128_1_0_0_1_n_n.lhsIdx (ix2 r d) ((contrEquiv1 dot_S512x2048_S2048x128_S512x128_1_0_0_1_n_n 2048 rfl rfl).symm k) = ix2 r k := funext fun a => Fin.ext (by
    match a with
    | ⟨0, _⟩ => exact pv_lhs0 _ _
    | ⟨1, _⟩ => exact (pv_lhs1 _ _).trans hk)
  have er : dot_S512x2048_S2048x128_S512x128_1_0_0_1_n_n.rhsIdx (ix2 r d) ((contrEquiv1 dot_S512x2048_S2048x128_S512x128_1_0_0_1_n_n 2048 rfl rfl).symm k) = ix2 k d := funext fun a => Fin.ext (by
    match a with
    | ⟨0, _⟩ => exact (pv_rhs0 _ _).trans hk
    | ⟨1, _⟩ => exact pv_rhs1 _ _)
  rw [el, er]

/-! ## The body's composite steps, over VARIABLE vectors

  Each is an identity of scalars once read at an index; stated over variable vectors the two sides unfold to the same
  scalar term at once. The payloads are instances. -/

/-- A column plus the logarithm of a column. -/
theorem lse_col (m s : FVec Ideal S512x1 .f32) (i : S512x1.Idx) : addf m (log s) i = m i + Ideal.log (s i) := rfl

/-- The scores minus their row maximum, exponentiated. -/
theorem shifted_exp (sc : FVec Ideal S512x2048 .f32) (m : FVec Ideal S512x1 .f32) (hb : S512x1.Broadcasts S512x2048)
    (r : Fin 512) (k : Fin 2048) :
    exp (subf sc (broadcastTo S512x2048 m hb)) (ix2 r k) = Ideal.exp (sc (ix2 r k) - m (ix2 r 0)) := by
  show Ideal.exp (sc (ix2 r k) - broadcastTo S512x2048 m hb (ix2 r k)) = _
  rw [bcast_scores m hb r k 0]

/-- The printed `logaddexp` of two columns is `lae` entry by entry. -/
theorem lae_vec (a b : FVec Ideal S512x1 .f32) (i : S512x1.Idx) :
    select (cmpf .one (subf a b) (subf a b)) (addf a b)
        (addf (maximumf a b) (log1p (exp (subf (broadcast S512x1 (Scalar.ofBits .f32 0x00000000#32)) (absf (subf a b)))))) i
      = lae (a i) (b i) :=
  lae_of_one (a i) (b i)

/-- The merge of two [512, 128] products, each weighted by `exp (its column - L)` broadcast along the row, stored as a
    [1, 1, 512, 128] block. -/
theorem merge_vec (p q : FVec Ideal S512x128 .f32) (ma mb L : FVec Ideal S512x1 .f32) (hb : S512x1.Broadcasts S512x128)
    (hc : S512x128.ShapeCasts S1x1x512x128) (a b : Fin 1) (r : Fin 512) (d : Fin 128) :
    shapeCast S1x1x512x128 (addf (mulf p (broadcastTo S512x128 (exp (subf ma L)) hb))
        (mulf q (broadcastTo S512x128 (exp (subf mb L)) hb))) hc (ix4 a b r d)
      = p (ix2 r d) * Ideal.exp (ma (ix2 r 0) - L (ix2 r 0)) + q (ix2 r d) * Ideal.exp (mb (ix2 r 0) - L (ix2 r 0)) := by
  rw [block_out _ hc a b r d]
  show p (ix2 r d) * broadcastTo S512x128 (exp (subf ma L)) hb (ix2 r d)
      + q (ix2 r d) * broadcastTo S512x128 (exp (subf mb L)) hb (ix2 r d) = _
  rw [bcast_out _ hb r d 0, bcast_out _ hb r d 0]
  rfl

end Cert.KernelIdeal.BodyOps

end
-- ==== Proof.BodyRows.lean ====
/-
  The kernel body's values, read one entry at a time at the exact instance, as the row mathematics of RowSoftmax.

  At a grid point the body holds a query tile `x0` ([1,1,512,128]) and the four key / value blocks `x1 … x4`
  ([1,1,2048,128]: keys A, values A, keys B, values B). For row `r` of the tile:
    * the scaled scores against a key block are `score c (row r of x0) (the key block)`;
    * the body's running maximum, shifted exponentials, log-sum-exp are `rowMax`, `rowExp`, `rowLse` of those scores;
    * the unnormalised product with a value block at column `d` is `Σ_k rowExp s k · value (k, d)`;
    * the stored output entry (r, d) is `mergedDeferred` of the two streams, the stored log-sum-exp entry is
      `lae` of the two streams' `rowLse`.
-/
import proofs.«129638_j44229573214696_2_alg».proof.Proof.Gen.KernelIdeal.Skeleton
import proofs.«129638_j44229573214696_2_alg».proof.Proof.BodyOps

noncomputable section

open Idealize.ShloMosaic Idealize.ShloMosaic.ValueIdx Cert.RowSoftmax

namespace Cert.KernelIdeal.BodyRows

open Cert.KernelIdeal Cert.KernelIdeal.Gen Cert.KernelIdeal.BodyOps

/-- The scale both programs multiply the scores by: the f32 word `0x3DB504F3`, whatever real it denotes. -/
abbrev scaleW : EReal := Ideal.ofBits .f32 0x3DB504F3#32

/-- Row `r` of a query tile. -/
def qRow (x : S1x1x512x128.Idx → EReal) (r : Fin 512) : Fin 128 → EReal := fun d => x (ix4 0 0 r d)
/-- A key block as rows. -/
def kvMat (x : S1x1x2048x128.Idx → EReal) : Fin 2048 → Fin 128 → EReal := fun k d => x (ix4 0 0 k d)
/-- Column `d` of a value block. -/
def kvCol (x : S1x1x2048x128.Idx → EReal) (d : Fin 128) : Fin 2048 → EReal := fun k => x (ix4 0 0 k d)

variable (x0 : Vec Ideal S1x1x512x128 .f32) (x1 x2 x3 x4 : Vec Ideal S1x1x2048x128 .f32)

/-! ## Stream A, from the loaded blocks -/

theorem pay7_apply (r : Fin 512) (d : Fin 128) : k0_pay7 x0 (ix2 r d) = x0 (ix4 0 0 r d) := by
  unfold k0_pay7
  exact view_q x0 _ r d

/-- The unscaled scores of the tile against a key block. -/
theorem pay14_apply (r : Fin 512) (k : Fin 2048) :
    k0_pay14 x0 x3 (ix2 r k) = ∑ d : Fin 128, qRow x0 r d * kvMat x3 k d := by
  unfold k0_pay14
  refine (qk_apply _ _ r k).trans (Finset.sum_congr rfl fun d _ => ?_)
  rw [pay7_apply, transpose_kv]
  exact congrArg (x0 (ix4 0 0 r d) * ·) (view_kv x3 _ k d)

/-- The scaled scores of stream A. -/
theorem pay8_apply (r : Fin 512) (k : Fin 2048) :
    k0_pay8 x0 x1 (ix2 r k) = score scaleW (qRow x0 r) (kvMat x1) k := by
  unfold k0_pay8
  refine congrArg (· * scaleW) ((qk_apply _ _ r k).trans (Finset.sum_congr rfl fun d _ => ?_))
  rw [pay7_apply, transpose_kv]
  exact congrArg (x0 (ix4 0 0 r d) * ·) (view_kv x1 _ k d)

theorem pay9_apply (r : Fin 512) (z : Fin 1) :
    k0_pay9 x0 x1 (ix2 r z) = rowMax (score scaleW (qRow x0 r) (kvMat x1)) := by
  unfold k0_pay9
  refine (rowmax_col _ _ _ _ _ r z).trans ?_
  exact congrArg rowMax (funext fun k => pay8_apply x0 x1 r k)

theorem pay10_apply (r : Fin 512) (k : Fin 2048) :
    k0_pay10 x0 x1 (ix2 r k) = rowExp (score scaleW (qRow x0 r) (kvMat x1)) k := by
  unfold k0_pay10
  refine (shifted_exp _ _ _ r k).trans ?_
  rw [pay8_apply, pay9_apply]
  rfl

theorem pay11_apply (r : Fin 512) (z : Fin 1) :
    k0_pay11 x0 x1 (ix2 r z) = rowLse (score scaleW (qRow x0 r) (kvMat x1)) := by
  unfold k0_pay11
  refine (lse_col _ _ (ix2 r z)).trans ?_
  unfold rowLse rowSum
  refine congrArg₂ (· + ·) (pay9_apply x0 x1 r z) (congrArg Ideal.log ?_)
  exact (rowsum_col _ _ _ _ _ r z).trans (Finset.sum_congr rfl fun k _ => pay10_apply x0 x1 r k)

/-- The unnormalised product of stream A's exponentials with its value block. -/
theorem pay12_apply (r : Fin 512) (d : Fin 128) :
    k0_pay12 x0 x1 x2 (ix2 r d) = ∑ k : Fin 2048, rowExp (score scaleW (qRow x0 r) (kvMat x1)) k * kvCol x2 d k := by
  unfold k0_pay12
  refine (pv_apply _ _ r d).trans (Finset.sum_congr rfl fun k _ => ?_)
  show k0_pay10 x0 x1 (ix2 r k) * shapeCast S2048x128 x2 _ (ix2 k d) = _
  rw [pay10_apply, view_kv]
  rfl

theorem pay13_apply (k : Fin 2048) (d : Fin 128) : k0_pay13 x4 (ix2 k d) = kvCol x4 d k := by
  unfold k0_pay13
  exact view_kv x4 _ k d

/-! ## Stream B and the merge, from the values handed on -/

variable (v14 v21 : FVec Ideal S512x1 .f32) (v23 : FVec Ideal S512x128 .f32) (v29 : FVec Ideal S2048x128 .bf16)
  (v31 : FVec Ideal S512x2048 .f32)

/-- Row `r` of the unscaled scores, scaled. -/
def scaledRow (v : S512x2048.Idx → EReal) (r : Fin 512) : Fin 2048 → EReal := fun k => v (ix2 r k) * scaleW

theorem pay1_apply (r : Fin 512) (k : Fin 2048) : k0_pay1 v31 (ix2 r k) = scaledRow v31 r k := rfl

theorem pay2_apply (r : Fin 512) (z : Fin 1) : k0_pay2 v31 (ix2 r z) = rowMax (scaledRow v31 r) := by
  unfold k0_pay2
  exact rowmax_col _ _ _ _ _ r z

theorem pay3_apply (r : Fin 512) (k : Fin 2048) : k0_pay3 v31 (ix2 r k) = rowExp (scaledRow v31 r) k := by
  unfold k0_pay3
  refine (shifted_exp _ _ _ r k).trans ?_
  rw [pay1_apply, pay2_apply]
  rfl

/-- Stream B's log-sum-exp, inside the merge. -/
theorem lseB_apply (r : Fin 512) (z : Fin 1) (h : S512x2048.Reduces [1] S512) (hc : S512.ShapeCasts S512x1)
    (hφ : FKind.Formats .f32) (hacc : (0x00000000#32 : BitVec 32) = FKind.add.neutral .f32 hφ) :
    k0_pay2 v31 (ix2 r z) + Ideal.log (shapeCast S512x1 (multiReduction .add [1] S512 (k0_pay3 v31) 0x00000000#32 h hφ hacc) hc (ix2 r z))
      = rowLse (scaledRow v31 r) := by
  rw [rowsum_col, pay2_apply, Finset.sum_congr rfl (fun k _ => pay3_apply v31 r k)]
  rfl

/-- The merged log-sum-exp of the two streams. -/
theorem pay4_apply (r : Fin 512) (z : Fin 1) :
    k0_pay4 v21 v31 (ix2 r z) = lae (v21 (ix2 r z)) (rowLse (scaledRow v31 r)) := by
  unfold k0_pay4
  refine (lae_vec v21 _ (ix2 r z)).trans ?_
  exact congrArg (lae (v21 (ix2 r z))) ((lse_col _ _ (ix2 r z)).trans (lseB_apply v31 r z _ _ _ _))

/-- The stored output entry: each stream's unnormalised product weighted by `exp (its maximum - merged lse)`. -/
theorem pay5_apply (a b : Fin 1) (r : Fin 512) (d : Fin 128) :
    k0_pay5 v14 v21 v23 v29 v31 (ix4 a b r d)
      = v23 (ix2 r d) * Ideal.exp (v14 (ix2 r 0) - lae (v21 (ix2 r 0)) (rowLse (scaledRow v31 r)))
        + (∑ k : Fin 2048, rowExp (scaledRow v31 r) k * v29 (ix2 k d))
          * Ideal.exp (rowMax (scaledRow v31 r) - lae (v21 (ix2 r 0)) (rowLse (scaledRow v31 r))) := by
  unfold k0_pay5
  refine (merge_vec v23 _ v14 (k0_pay2 v31) (k0_pay4 v21 v31) _ _ a b r d).trans ?_
  rw [pay4_apply, pay2_apply, pv_apply]
  simp only [truncf_apply, pay3_apply]

/-- The stored log-sum-exp entry. -/
theorem pay6_apply (a b : Fin 1) (r : Fin 512) (z : Fin 1) :
    k0_pay6 v21 v31 (ix4 a b r z) = lae (v21 (ix2 r 0)) (rowLse (scaledRow v31 r)) := by
  unfold k0_pay6
  exact (block_col _ _ a b r z 0).trans (pay4_apply v21 v31 r 0)

/-! ## The two stored blocks as functions of the loaded blocks -/

/-- Stream B's scaled scores are `score` of the tile's row against key block B. -/
theorem scaledRow_pay14 (r : Fin 512) : scaledRow (k0_pay14 x0 x3) r = score scaleW (qRow x0 r) (kvMat x3) :=
  funext fun k => by unfold scaledRow score; rw [pay14_apply]

/-- Entry (r, d) of the output block is the merged attention entry, normaliser deferred. -/
theorem out_entry (a b : Fin 1) (r : Fin 512) (d : Fin 128) :
    k0_pay5 (k0_pay9 x0 x1) (k0_pay11 x0 x1) (k0_pay12 x0 x1 x2) (k0_pay13 x4) (k0_pay14 x0 x3) (ix4 a b r d)
      = mergedDeferred (score scaleW (qRow x0 r) (kvMat x1)) (score scaleW (qRow x0 r) (kvMat x3)) (kvCol x2 d) (kvCol x4 d) := by
  rw [pay5_apply, pay9_apply, pay11_apply, scaledRow_pay14]
  simp only [pay12_apply, pay13_apply]
  rfl

/-- Entry r of the log-sum-exp block is `logaddexp` of the two streams' log-sum-exps. -/
theorem lse_entry (a b : Fin 1) (r : Fin 512) (z : Fin 1) :
    k0_pay6 (k0_pay11 x0 x1) (k0_pay14 x0 x3) (ix4 a b r z)
      = lae (rowLse (score scaleW (qRow x0 r) (kvMat x1))) (rowLse (score scaleW (qRow x0 r) (kvMat x3))) := by
  rw [pay6_apply, pay11_apply, scaledRow_pay14]

end Cert.KernelIdeal.BodyRows

end
-- ==== Proof.Attention.lean ====
/-
  The two-stream attention as functions of the whole argument arrays.

  The arrays: queries `q` of shape [1, 16, 1024, 128] (batch, head, row, feature); keys and values of the two streams,
  each [1, 16, 2048, 128]. For head `h` and query row `n` the scaled scores of a stream are
  `score c (q (0, h, n, ·)) (key (0, h, ·, ·))`; the first result's entry (0, h, n, d) is the merged entry of RowSoftmax
  over the two streams' scores and the value columns `value (0, h, ·, d)`; the second result's entry (0, h, n) is the
  `logaddexp` of the two streams' log-sum-exps. The kernel computes the deferred form, the reference the normalised one;
  on arrays of real numbers they are the same array.
-/
import proofs.«129638_j44229573214696_2_alg».proof.Proof.RowSoftmax

noncomputable section

open Idealize.ShloMosaic Idealize.ShloMosaic.ValueIdx Cert.RowSoftmax

namespace Cert.Attention

/-- The scale both programs multiply the scores by: the f32 word `0x3DB504F3`. -/
abbrev scaleW : EReal := Ideal.ofBits .f32 0x3DB504F3#32

abbrev SQ : Shape := ⟨4, ![1, 16, 1024, 128]⟩
abbrev SKV : Shape := ⟨4, ![1, 16, 2048, 128]⟩
abbrev SLse : Shape := ⟨3, ![1, 16, 1024]⟩

/-- Row `(h, n)` of the query array. -/
def headRow (q : SQ.Idx → EReal) (h : Fin 16) (n : Fin 1024) : Fin 128 → EReal := fun d => q (ix4 0 h n d)
/-- Head `h` of a key array, as rows. -/
def headKeys (x : SKV.Idx → EReal) (h : Fin 16) : Fin 2048 → Fin 128 → EReal := fun k d => x (ix4 0 h k d)
/-- Column `d` of head `h` of a value array. -/
def headCol (x : SKV.Idx → EReal) (h : Fin 16) (d : Fin 128) : Fin 2048 → EReal := fun k => x (ix4 0 h k d)
/-- The scaled scores of query row `(h, n)` against head `h` of a key array. -/
def headScores (q : SQ.Idx → EReal) (key : SKV.Idx → EReal) (h : Fin 16) (n : Fin 1024) : Fin 2048 → EReal :=
  score scaleW (headRow q h n) (headKeys key h)

/-- The merged attention output with the normaliser deferred. -/
def attnDeferred (q : SQ.Idx → EReal) (kA vA kB vB : SKV.Idx → EReal) : SQ.Idx → EReal := fun i =>
  mergedDeferred (headScores q kA (i 1) (i 2)) (headScores q kB (i 1) (i 2)) (headCol vA (i 1) (i 3)) (headCol vB (i 1) (i 3))

/-- The merged attention output with the probabilities normalised first. -/
def attnNormalised (q : SQ.Idx → EReal) (kA vA kB vB : SKV.Idx → EReal) : SQ.Idx → EReal := fun i =>
  mergedNormalised (headScores q kA (i 1) (i 2)) (headScores q kB (i 1) (i 2)) (headCol vA (i 1) (i 3)) (headCol vB (i 1) (i 3))

/-- The merged log-sum-exp. -/
def attnLse (q : SQ.Idx → EReal) (kA kB : SKV.Idx → EReal) : SLse.Idx → EReal := fun i =>
  lae (rowLse (headScores q kA (i 1) (i 2))) (rowLse (headScores q kB (i 1) (i 2)))

/-- The scale word denotes a real number: its exponent field is not all ones. -/
theorem scale_real : ∃ c : ℝ, scaleW = (c : EReal) := by
  show ∃ c : ℝ, Ideal.ieee 8 23 (0x3DB504F3#32 : BitVec 32) = (c : EReal)
  unfold Ideal.ieee
  dsimp only
  split_ifs with h1 <;> first | exact ⟨_, rfl⟩ | exact absurd h1 (by decide)

/-- On arrays of real numbers the normalised and the deferred attention are the same array. -/
theorem attnNormalised_eq (q : SQ.Idx → EReal) (kA vA kB vB : SKV.Idx → EReal) (hq : ∀ i, ∃ r : ℝ, q i = r)
    (hkA : ∀ i, ∃ r : ℝ, kA i = r) (hvA : ∀ i, ∃ r : ℝ, vA i = r) (hkB : ∀ i, ∃ r : ℝ, kB i = r)
    (hvB : ∀ i, ∃ r : ℝ, vB i = r) : attnNormalised q kA vA kB vB = attnDeferred q kA vA kB vB := by
  funext i
  unfold attnNormalised attnDeferred
  exact mergedNormalised_eq _ _ _ _
    (score_real _ _ _ scale_real (fun d => hq _) (fun k d => hkA _))
    (score_real _ _ _ scale_real (fun d => hq _) (fun k d => hkB _))
    (fun k => hvA _) (fun k => hvB _)

end Cert.Attention

end
-- ==== Proof.KernelBlocks.lean ====
/-
  One grid point of the kernel, in terms of the whole arrays.

  At the point of head `H` and query tile starting at row `n0`, the staged blocks are rows of the argument arrays: the
  query block is rows `n0 … n0 + 511` of head `H` of `q`, each key / value block is all of head `H` of its array. Then
  entry `(r, d)` of the body's output block is entry `(0, H, n0 + r, d)` of the deferred attention of the arrays, and
  entry `r` of its log-sum-exp block is entry `(0, H, n0 + r)` of the merged log-sum-exp.
-/
import proofs.«129638_j44229573214696_2_alg».proof.Proof.Gen.KernelIdeal.Frame
import proofs.«129638_j44229573214696_2_alg».proof.Proof.BodyRows
import proofs.«129638_j44229573214696_2_alg».proof.Proof.Attention

noncomputable section

open Idealize.ShloMosaic Idealize.ShloMosaic.ValueIdx Cert.RowSoftmax Cert.Attention

namespace Cert.KernelIdeal.Blocks

open Cert.KernelIdeal Cert.KernelIdeal.Gen Cert.KernelIdeal.BodyRows

theorem hz4 : (![0, 0, 0, 0] : Fin 4 → Nat) = fun _ => 0 := funext fun a => by fin_cases a <;> rfl

variable (X0 : Vec Ideal S1x1x512x128 .f32) (X1 X2 X3 X4 : Vec Ideal S1x1x2048x128 .f32)
  (Q : SQ.Idx → EReal) (KA VA KB VB : SKV.Idx → EReal) (H : Fin 16) (n0 : Nat) (hn0 : n0 + 512 ≤ 1024)

/-- A row of the tile's scaled scores is a row of the arrays' scaled scores. -/
theorem scores_eq (X : Vec Ideal S1x1x2048x128 .f32) (K : SKV.Idx → EReal)
    (h0 : ∀ (r : Fin 512) (d : Fin 128), X0 (ix4 0 0 r d) = Q (ix4 0 H ⟨n0 + r.val, by omega⟩ d))
    (h1 : ∀ (k : Fin 2048) (d : Fin 128), X (ix4 0 0 k d) = K (ix4 0 H k d)) (r : Fin 512) :
    score BodyRows.scaleW (qRow X0 r) (kvMat X) = headScores Q K H ⟨n0 + r.val, by omega⟩ := by
  unfold headScores
  rw [show qRow X0 r = headRow Q H ⟨n0 + r.val, by omega⟩ from funext fun d => h0 r d,
    show kvMat X = headKeys K H from funext fun k => funext fun d => h1 k d]

/-- A column of a value block is a column of the value array's head. -/
theorem col_eq (X : Vec Ideal S1x1x2048x128 .f32) (V : SKV.Idx → EReal)
    (h : ∀ (k : Fin 2048) (d : Fin 128), X (ix4 0 0 k d) = V (ix4 0 H k d)) (d : Fin 128) : kvCol X d = headCol V H d :=
  funext fun k => h k d

/-- The body's output block is rows of the deferred attention of the arrays. -/
theorem out_block
    (h0 : ∀ (r : Fin 512) (d : Fin 128), X0 (ix4 0 0 r d) = Q (ix4 0 H ⟨n0 + r.val, by omega⟩ d))
    (h1 : ∀ (k : Fin 2048) (d : Fin 128), X1 (ix4 0 0 k d) = KA (ix4 0 H k d))
    (h2 : ∀ (k : Fin 2048) (d : Fin 128), X2 (ix4 0 0 k d) = VA (ix4 0 H k d))
    (h3 : ∀ (k : Fin 2048) (d : Fin 128), X3 (ix4 0 0 k d) = KB (ix4 0 H k d))
    (h4 : ∀ (k : Fin 2048) (d : Fin 128), X4 (ix4 0 0 k d) = VB (ix4 0 H k d))
    (a b : Fin 1) (r : Fin 512) (d : Fin 128) :
    out0_5 X0 X1 X2 X3 X4 (ix4 a b r d) = attnDeferred Q KA VA KB VB (ix4 0 H ⟨n0 + r.val, by omega⟩ d) := by
  unfold out0_5
  rw [View.canon_unit_zero hz4]
  simp only [View.ld_unit_zero (S := S1x1x512x128) hz4, View.ld_unit_zero (S := S1x1x2048x128) hz4]
  rw [out_entry, scores_eq X0 Q H n0 hn0 X1 KA h0 h1 r, scores_eq X0 Q H n0 hn0 X3 KB h0 h3 r,
    col_eq H X2 VA h2 d, col_eq H X4 VB h4 d]
  rfl

/-- The body's log-sum-exp block is rows of the merged log-sum-exp of the arrays. -/
theorem lse_block
    (h0 : ∀ (r : Fin 512) (d : Fin 128), X0 (ix4 0 0 r d) = Q (ix4 0 H ⟨n0 + r.val, by omega⟩ d))
    (h1 : ∀ (k : Fin 2048) (d : Fin 128), X1 (ix4 0 0 k d) = KA (ix4 0 H k d))
    (h3 : ∀ (k : Fin 2048) (d : Fin 128), X3 (ix4 0 0 k d) = KB (ix4 0 H k d))
    (a b : Fin 1) (r : Fin 512) (z : Fin 1) :
    out0_6 X0 X1 X2 X3 X4 (ix4 a b r z) = attnLse Q KA KB (ix3 0 H ⟨n0 + r.val, by omega⟩) := by
  unfold out0_6
  rw [View.canon_unit_zero hz4]
  simp only [View.ld_unit_zero (S := S1x1x512x128) hz4, View.ld_unit_zero (S := S1x1x2048x128) hz4]
  rw [lse_entry, scores_eq X0 Q H n0 hn0 X1 KA h0 h1 r, scores_eq X0 Q H n0 hn0 X3 KB h0 h3 r]
  rfl

end Cert.KernelIdeal.Blocks

end
-- ==== Proof.KernelValue.lean ====
/-
  The kernel's run, read: after every weakly fair execution its first result array holds the deferred attention of the
  argument arrays and its second (the log-sum-exp, reshaped on the host from [1,16,1024,1] to [1,16,1024]) the merged
  log-sum-exp; the arguments are unchanged.

  The grid is 16 heads × 2 query tiles. At a point the output window's block indices are (0, H, T, 0): the query window
  moves with it, the four key / value windows sit at (0, H, 0, 0) — facts decided over the 32 points. So each staged block
  is rows of its array, the body's two blocks are rows of the whole-array functions (KernelBlocks), every entry of each
  result array lies in the block of the point (H, T) = (its head, its row / 512), and the blocks assemble to the arrays.
-/
import proofs.«129638_j44229573214696_2_alg».proof.Proof.KernelBlocks
import Idealize.ShloMosaic.Lib.Pipeline.Value
import Idealize.ShloMosaic.Lib.StableHlo.Run
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)
open Cert.RowSoftmax Cert.Attention

namespace Cert.KernelIdeal.Hand

open Cert.KernelIdeal Cert.KernelIdeal.Gen Cert.KernelIdeal.Blocks

variable (m : (ℓ : Loc nD τ sig) → Buf (Elt Ideal) ℓ) (ρ : Dev nD → PrngReg)

/-! ## The index maps over the grid -/

/-- The printed index maps, decided over the 32 grid points. -/
theorem idx_facts : ∀ t : Fin cfg0.N,
    (win0_0.index t (0 : Fin 4) = 0 ∧ win0_0.index t (1 : Fin 4) = win0_5.index t (1 : Fin 4)
      ∧ win0_0.index t (2 : Fin 4) = win0_5.index t (2 : Fin 4) ∧ win0_0.index t (3 : Fin 4) = 0)
    ∧ (win0_1.index t (0 : Fin 4) = 0 ∧ win0_1.index t (1 : Fin 4) = win0_5.index t (1 : Fin 4) ∧ win0_1.index t (2 : Fin 4) = 0 ∧ win0_1.index t (3 : Fin 4) = 0)
    ∧ (win0_2.index t (0 : Fin 4) = 0 ∧ win0_2.index t (1 : Fin 4) = win0_5.index t (1 : Fin 4) ∧ win0_2.index t (2 : Fin 4) = 0 ∧ win0_2.index t (3 : Fin 4) = 0)
    ∧ (win0_3.index t (0 : Fin 4) = 0 ∧ win0_3.index t (1 : Fin 4) = win0_5.index t (1 : Fin 4) ∧ win0_3.index t (2 : Fin 4) = 0 ∧ win0_3.index t (3 : Fin 4) = 0)
    ∧ (win0_4.index t (0 : Fin 4) = 0 ∧ win0_4.index t (1 : Fin 4) = win0_5.index t (1 : Fin 4) ∧ win0_4.index t (2 : Fin 4) = 0 ∧ win0_4.index t (3 : Fin 4) = 0)
    ∧ (win0_6.index t (0 : Fin 4) = 0 ∧ win0_6.index t (1 : Fin 4) = win0_5.index t (1 : Fin 4)
      ∧ win0_6.index t (2 : Fin 4) = win0_5.index t (2 : Fin 4) ∧ win0_6.index t (3 : Fin 4) = 0)
    ∧ (win0_5.index t (0 : Fin 4) = 0 ∧ win0_5.index t (1 : Fin 4) < 16 ∧ win0_5.index t (2 : Fin 4) < 2
      ∧ win0_5.index t (3 : Fin 4) = 0) :=
  (by decide +kernel : ∀ t : Fin grid0.N, _)

/-- Every (head, tile) pair is some point's output block. -/
theorem idx_onto5 : ∀ (q1 : Fin 16) (q2 : Fin 2), ∃ t : Fin cfg0.N, win0_5.index t = ![0, q1.val, q2.val, 0] :=
  (by decide +kernel : ∀ (q1 : Fin 16) (q2 : Fin 2), ∃ t : Fin grid0.N, win0_5.index t = ![0, q1.val, q2.val, 0])
theorem idx_onto6 : ∀ (q1 : Fin 16) (q2 : Fin 2), ∃ t : Fin cfg0.N, win0_6.index t = ![0, q1.val, q2.val, 0] :=
  (by decide +kernel : ∀ (q1 : Fin 16) (q2 : Fin 2), ∃ t : Fin grid0.N, win0_6.index t = ![0, q1.val, q2.val, 0])

/-! ## The staged blocks are rows of the arrays -/

/-- The query window's block at a point is 512 rows of one head of the query array. -/
theorem iblk0_apply (c : Dev nD) (t : Fin cfg0.N) (H : Fin 16) (eH : win0_5.index t (1 : Fin 4) = H.val)
    (n0 : Nat) (hn0 : n0 + 512 ≤ 1024) (en : win0_5.index t (2 : Fin 4) * 512 = n0) (r : Fin 512) (d : Fin 128) :
    (iblk m c 0 t : Vec Ideal S1x1x512x128 .f32) (ix4 0 0 r d) = (V m c main_arg0 : SQ.Idx → EReal) (ix4 0 H ⟨n0 + r.val, by omega⟩ d) := by
  have f := idx_facts t
  unfold iblk
  rw [View.read_apply]
  show V m c main_arg0 _ = V m c main_arg0 _
  congr 1
  funext a
  apply Fin.ext
  match a with
  | ⟨0, _⟩ => show win0_0.index t (0 : Fin 4) * 1 + 1 * 0 = 0; omega
  | ⟨1, _⟩ => show win0_0.index t (1 : Fin 4) * 1 + 1 * 0 = H.val; omega
  | ⟨2, _⟩ => show win0_0.index t (2 : Fin 4) * 512 + 1 * r.val = n0 + r.val; omega
  | ⟨3, _⟩ => show win0_0.index t (3 : Fin 4) * 128 + 1 * d.val = d.val; omega

/-- Window 1's block at any point is all of one head of its array. -/
theorem iblk1_apply (c : Dev nD) (t : Fin cfg0.N) (H : Fin 16) (eH : win0_5.index t (1 : Fin 4) = H.val) (k : Fin 2048) (d : Fin 128) :
    (iblk m c 1 t : Vec Ideal S1x1x2048x128 .f32) (ix4 0 0 k d) = (V m c main_arg1 : SKV.Idx → EReal) (ix4 0 H k d) := by
  have f := idx_facts t
  unfold iblk
  rw [View.read_apply]
  show V m c main_arg1 _ = V m c main_arg1 _
  congr 1
  funext a
  apply Fin.ext
  match a with
  | ⟨0, _⟩ => show win0_1.index t (0 : Fin 4) * 1 + 1 * 0 = 0; omega
  | ⟨1, _⟩ => show win0_1.index t (1 : Fin 4) * 1 + 1 * 0 = H.val; omega
  | ⟨2, _⟩ => show win0_1.index t (2 : Fin 4) * 2048 + 1 * k.val = k.val; omega
  | ⟨3, _⟩ => show win0_1.index t (3 : Fin 4) * 128 + 1 * d.val = d.val; omega

/-- Window 2's block at any point is all of one head of its array. -/
theorem iblk2_apply (c : Dev nD) (t : Fin cfg0.N) (H : Fin 16) (eH : win0_5.index t (1 : Fin 4) = H.val) (k : Fin 2048) (d : Fin 128) :
    (iblk m c 2 t : Vec Ideal S1x1x2048x128 .f32) (ix4 0 0 k d) = (V m c main_arg2 : SKV.Idx → EReal) (ix4 0 H k d) := by
  have f := idx_facts t
  unfold iblk
  rw [View.read_apply]
  show V m c main_arg2 _ = V m c main_arg2 _
  congr 1
  funext a
  apply Fin.ext
  match a with
  | ⟨0, _⟩ => show win0_2.index t (0 : Fin 4) * 1 + 1 * 0 = 0; omega
  | ⟨1, _⟩ => show win0_2.index t (1 : Fin 4) * 1 + 1 * 0 = H.val; omega
  | ⟨2, _⟩ => show win0_2.index t (2 : Fin 4) * 2048 + 1 * k.val = k.val; omega
  | ⟨3, _⟩ => show win0_2.index t (3 : Fin 4) * 128 + 1 * d.val = d.val; omega

/-- Window 3's block at any point is all of one head of its array. -/
theorem iblk3_apply (c : Dev nD) (t : Fin cfg0.N) (H : Fin 16) (eH : win0_5.index t (1 : Fin 4) = H.val) (k : Fin 2048) (d : Fin 128) :
    (iblk m c 3 t : Vec Ideal S1x1x2048x128 .f32) (ix4 0 0 k d) = (V m c main_arg3 : SKV.Idx → EReal) (ix4 0 H k d) := by
  have f := idx_facts t
  unfold iblk
  rw [View.read_apply]
  show V m c main_arg3 _ = V m c main_arg3 _
  congr 1
  funext a
  apply Fin.ext
  match a with
  | ⟨0, _⟩ => show win0_3.index t (0 : Fin 4) * 1 + 1 * 0 = 0; omega
  | ⟨1, _⟩ => show win0_3.index t (1 : Fin 4) * 1 + 1 * 0 = H.val; omega
  | ⟨2, _⟩ => show win0_3.index t (2 : Fin 4) * 2048 + 1 * k.val = k.val; omega
  | ⟨3, _⟩ => show win0_3.index t (3 : Fin 4) * 128 + 1 * d.val = d.val; omega

/-- Window 4's block at any point is all of one head of its array. -/
theorem iblk4_apply (c : Dev nD) (t : Fin cfg0.N) (H : Fin 16) (eH : win0_5.index t (1 : Fin 4) = H.val) (k : Fin 2048) (d : Fin 128) :
    (iblk m c 4 t : Vec Ideal S1x1x2048x128 .f32) (ix4 0 0 k d) = (V m c main_arg4 : SKV.Idx → EReal) (ix4 0 H k d) := by
  have f := idx_facts t
  unfold iblk
  rw [View.read_apply]
  show V m c main_arg4 _ = V m c main_arg4 _
  congr 1
  funext a
  apply Fin.ext
  match a with
  | ⟨0, _⟩ => show win0_4.index t (0 : Fin 4) * 1 + 1 * 0 = 0; omega
  | ⟨1, _⟩ => show win0_4.index t (1 : Fin 4) * 1 + 1 * 0 = H.val; omega
  | ⟨2, _⟩ => show win0_4.index t (2 : Fin 4) * 2048 + 1 * k.val = k.val; omega
  | ⟨3, _⟩ => show win0_4.index t (3 : Fin 4) * 128 + 1 * d.val = d.val; omega

/-! ## What each point writes back -/

/-- The first result as a function of the arrays the region finds. -/
abbrev G5 (c : Dev nD) : SQ.Idx → EReal :=
  attnDeferred (V m c main_arg0) (V m c main_arg1) (V m c main_arg2) (V m c main_arg3) (V m c main_arg4)

/-- The keepdims log-sum-exp array [1, 16, 1024, 1] as a function of the arrays. -/
abbrev G6 (c : Dev nD) : S1x16x1024x1.Idx → EReal := fun i =>
  attnLse (V m c main_arg0) (V m c main_arg1) (V m c main_arg3) (ix3 0 (i 1) (i 2))

/-- Point `t` writes back block `t` of the deferred attention. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  have f := idx_facts t
  have hH : win0_5.index t (1 : Fin 4) < 16 := f.2.2.2.2.2.2.2.1
  have hT : win0_5.index t (2 : Fin 4) < 2 := f.2.2.2.2.2.2.2.2.1
  refine funext (fun (j : S1x1x512x128.Idx) => ?_)
  obtain ⟨a, b, r, d, rfl⟩ : ∃ (a b : Fin 1) (r : Fin 512) (d : Fin 128), j = ix4 a b r d := ⟨j 0, j 1, j 2, j 3, eq_ix4 j⟩
  show out0_5 (iblk m c 0 t) (iblk m c 1 t) (iblk m c 2 t) (iblk m c 3 t) (iblk m c 4 t) (ix4 a b r d)
    = G5 m c (((cfg0.win 5).blk t).view.emb (ix4 a b r d))
  refine (out_block (iblk m c 0 t) (iblk m c 1 t) (iblk m c 2 t) (iblk m c 3 t) (iblk m c 4 t)
    (V m c main_arg0) (V m c main_arg1) (V m c main_arg2) (V m c main_arg3) (V m c main_arg4)
    ⟨win0_5.index t (1 : Fin 4), hH⟩ (win0_5.index t (2 : Fin 4) * 512) (by omega)
    (iblk0_apply m c t _ rfl _ (by omega) rfl) (iblk1_apply m c t _ rfl) (iblk2_apply m c t _ rfl)
    (iblk3_apply m c t _ rfl) (iblk4_apply m c t _ rfl) a b r d).trans ?_
  refine congrArg (G5 m c) (funext fun x => Fin.ext ?_)
  have ha := a.isLt; have hb := b.isLt
  match x with
  | ⟨0, _⟩ => show 0 = win0_5.index t (0 : Fin 4) * 1 + 1 * a.val; omega
  | ⟨1, _⟩ => show win0_5.index t (1 : Fin 4) = win0_5.index t (1 : Fin 4) * 1 + 1 * b.val; omega
  | ⟨2, _⟩ => show win0_5.index t (2 : Fin 4) * 512 + r.val = win0_5.index t (2 : Fin 4) * 512 + 1 * r.val; omega
  | ⟨3, _⟩ => show d.val = win0_5.index t (3 : Fin 4) * 128 + 1 * d.val; omega

/-- Point `t` writes back block `t` of the keepdims log-sum-exp. -/
theorem flushed6_eq (c : Dev nD) (t : Fin cfg0.N) :
    (dats m 0 c).flushed 6 t = ((cfg0.win 6).blk t).view.read (Elt Ideal) (G6 m c) := by
  show (cfg0.win 6).cut (grid0.coords t) ((dats m 0 c).after 6 t) = _
  rw [after0_6]
  have f := idx_facts t
  have hH : win0_5.index t (1 : Fin 4) < 16 := f.2.2.2.2.2.2.2.1
  have hT : win0_5.index t (2 : Fin 4) < 2 := f.2.2.2.2.2.2.2.2.1
  refine funext (fun (j : S1x1x512x1.Idx) => ?_)
  obtain ⟨a, b, r, z, rfl⟩ : ∃ (a b : Fin 1) (r : Fin 512) (z : Fin 1), j = ix4 a b r z := ⟨j 0, j 1, j 2, j 3, eq_ix4 j⟩
  show out0_6 (iblk m c 0 t) (iblk m c 1 t) (iblk m c 2 t) (iblk m c 3 t) (iblk m c 4 t) (ix4 a b r z)
    = G6 m c (((cfg0.win 6).blk t).view.emb (ix4 a b r z))
  refine (lse_block (iblk m c 0 t) (iblk m c 1 t) (iblk m c 2 t) (iblk m c 3 t) (iblk m c 4 t)
    (V m c main_arg0) (V m c main_arg1) (V m c main_arg3)
    ⟨win0_5.index t (1 : Fin 4), hH⟩ (win0_5.index t (2 : Fin 4) * 512) (by omega)
    (iblk0_apply m c t _ rfl _ (by omega) rfl) (iblk1_apply m c t _ rfl) (iblk3_apply m c t _ rfl) a b r z).trans ?_
  show attnLse _ _ _ (ix3 0 _ _) = attnLse _ _ _ (ix3 0 _ _)
  refine congrArg (attnLse (V m c main_arg0) (V m c main_arg1) (V m c main_arg3)) (funext fun x => Fin.ext ?_)
  have ha := a.isLt; have hb := b.isLt
  match x with
  | ⟨0, _⟩ => rfl
  | ⟨1, _⟩ => show win0_5.index t (1 : Fin 4) = win0_6.index t (1 : Fin 4) * 1 + 1 * b.val; omega
  | ⟨2, _⟩ => show win0_5.index t (2 : Fin 4) * 512 + r.val = win0_6.index t (2 : Fin 4) * 512 + 1 * r.val; omega

/-! ## The blocks cover the arrays -/

theorem mem_blk5 (t : Fin cfg0.N) (i : S1x16x1024x128.Idx) :
    i ∈ ((cfg0.win 5).blk t).view.set ↔ ∀ a : Fin 4, win0_5.index t a * S1x1x512x128.size a ≤ (i a).val
      ∧ (i a).val < win0_5.index t a * S1x1x512x128.size a + S1x1x512x128.size a := by
  show i ∈ ((View.whole main_v0_0).slice (win0_5.rect t)).set ↔ _
  rw [View.set_slice_whole, Rect.mem_set_unit]
  exact Iff.rfl

theorem mem_blk6 (t : Fin cfg0.N) (i : S1x16x1024x1.Idx) :
    i ∈ ((cfg0.win 6).blk t).view.set ↔ ∀ a : Fin 4, win0_6.index t a * S1x1x512x1.size a ≤ (i a).val
      ∧ (i a).val < win0_6.index t a * S1x1x512x1.size a + S1x1x512x1.size a := by
  show i ∈ ((View.whole main_v0_1).slice (win0_6.rect t)).set ↔ _
  rw [View.set_slice_whole, Rect.mem_set_unit]
  exact Iff.rfl

/-- Entry (0, h, n, d) lies in the block of the point of head `h` and tile `n / 512`. -/
theorem cover5 (i : S1x16x1024x128.Idx) : ∃ t : Fin cfg0.N, (cfg0.win 5).flush t = true ∧ i ∈ ((cfg0.win 5).blk t).view.set := by
  have h0 : (i 0).val < 1 := (i 0).isLt
  have h1 : (i 1).val < 16 := (i 1).isLt
  have h2 : (i 2).val < 1024 := (i 2).isLt
  have h3 : (i 3).val < 128 := (i 3).isLt
  obtain ⟨t, ht⟩ := idx_onto5 ⟨(i 1).val, h1⟩ ⟨(i 2).val / 512, by omega⟩
  have q0 : win0_5.index t (0 : Fin 4) = 0 := congrFun ht 0
  have q1 : win0_5.index t (1 : Fin 4) = (i 1).val := congrFun ht 1
  have q2 : win0_5.index t (2 : Fin 4) = (i 2).val / 512 := congrFun ht 2
  have q3 : win0_5.index t (3 : Fin 4) = 0 := congrFun ht 3
  refine ⟨t, flush0_5 t, ?_⟩
  rw [mem_blk5]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 1 ≤ (i 1).val ∧ (i 1).val < win0_5.index t (1 : Fin 4) * 1 + 1; omega
  | ⟨2, _⟩ => show win0_5.index t (2 : Fin 4) * 512 ≤ (i 2).val ∧ (i 2).val < win0_5.index t (2 : Fin 4) * 512 + 512; omega
  | ⟨3, _⟩ => show win0_5.index t (3 : Fin 4) * 128 ≤ (i 3).val ∧ (i 3).val < win0_5.index t (3 : Fin 4) * 128 + 128; omega

theorem cover6 (i : S1x16x1024x1.Idx) : ∃ t : Fin cfg0.N, (cfg0.win 6).flush t = true ∧ i ∈ ((cfg0.win 6).blk t).view.set := by
  have h0 : (i 0).val < 1 := (i 0).isLt
  have h1 : (i 1).val < 16 := (i 1).isLt
  have h2 : (i 2).val < 1024 := (i 2).isLt
  have h3 : (i 3).val < 1 := (i 3).isLt
  obtain ⟨t, ht⟩ := idx_onto6 ⟨(i 1).val, h1⟩ ⟨(i 2).val / 512, by omega⟩
  have q0 : win0_6.index t (0 : Fin 4) = 0 := congrFun ht 0
  have q1 : win0_6.index t (1 : Fin 4) = (i 1).val := congrFun ht 1
  have q2 : win0_6.index t (2 : Fin 4) = (i 2).val / 512 := congrFun ht 2
  have q3 : win0_6.index t (3 : Fin 4) = 0 := congrFun ht 3
  refine ⟨t, flush0_6 t, ?_⟩
  rw [mem_blk6]
  intro a
  match a with
  | ⟨0, _⟩ => show win0_6.index t (0 : Fin 4) * 1 ≤ (i 0).val ∧ (i 0).val < win0_6.index t (0 : Fin 4) * 1 + 1; omega
  | ⟨1, _⟩ => show win0_6.index t (1 : Fin 4) * 1 ≤ (i 1).val ∧ (i 1).val < win0_6.index t (1 : Fin 4) * 1 + 1; omega
  | ⟨2, _⟩ => show win0_6.index t (2 : Fin 4) * 512 ≤ (i 2).val ∧ (i 2).val < win0_6.index t (2 : Fin 4) * 512 + 512; omega
  | ⟨3, _⟩ => show win0_6.index t (3 : Fin 4) * 1 ≤ (i 3).val ∧ (i 3).val < win0_6.index t (3 : Fin 4) * 1 + 1; omega

/-! ## The result arrays after the region -/

theorem final5 (c : Dev nD) : (dats m 0 c).arrAt 5 cfg0.N = G5 m c :=
  (dats m 0 c).arrAt_eq_of_cover 5 (G5 m c) (fun t _ => flushed5_eq m c t) (fun i => cover5 i)

theorem final6 (c : Dev nD) : (dats m 0 c).arrAt 6 cfg0.N = G6 m c :=
  (dats m 0 c).arrAt_eq_of_cover 6 (G6 m c) (fun t _ => flushed6_eq m c t) (fun i => cover6 i)

/-! ## The host's reshape of the log-sum-exp -/

/-- Dropping the unit axis of the keepdims array gives the merged log-sum-exp. -/
theorem squeeze_G6 (c : Dev nD) (h : S1x16x1024x1.ShapeCasts S1x16x1024) :
    shapeCast S1x16x1024 (G6 m c) h = attnLse (V m c main_arg0) (V m c main_arg1) (V m c main_arg3) := by
  funext i
  have h0 : (i 0).val < 1 := (i 0).isLt
  have h1 : (i 1).val < 16 := (i 1).isLt
  have h2 : (i 2).val < 1024 := (i 2).isLt
  rw [shapeCast_apply (G6 m c) h i (ix4 0 (i 1) (i 2) 0) (by
    rw [Shape.rowMajor_val_four, Shape.rowMajor_val_three]
    show ((0 * 16 + (i 1).val) * 1024 + (i 2).val) * 1 + 0 = ((i 0).val * 16 + (i 1).val) * 1024 + (i 2).val
    omega)]
  rfl

end Cert.KernelIdeal.Hand

end
-- ==== Proof.KernelRun.lean ====
/-
  The kernel program's run with both results named: the first result array is the deferred attention of the argument
  arrays; the second is the host's reshape of the keepdims log-sum-exp array, the merged log-sum-exp; the argument
  arrays end unchanged.
-/
import proofs.«129638_j44229573214696_2_alg».proof.Proof.KernelValue

set_option maxRecDepth 16384

noncomputable section

open Idealize.ShloMosaic Idealize.ShloMosaic.TcCoe Idealize.SL.Sem Idealize.ShloMosaic.ValueIdx
open Idealize.ShloMosaic.Pipeline (Dat)
open Cert.RowSoftmax Cert.Attention

namespace Cert.KernelIdeal.Hand

open Cert.KernelIdeal Cert.KernelIdeal.Gen

variable (m : (ℓ : Loc nD τ sig) → Buf (Elt Ideal) ℓ) (ρ : Dev nD → PrngReg)

/-- The reshaped result's buffer is unscoped and is no window's array: it bypasses the region. -/
theorem v1_rest : main_v1 ∈ Pipeline.restRefs sig spec0 :=
  Pipeline.mem_restRefs_of main_v1 rfl (fun w => by fin_cases w <;> decide)

/-- After the region the host reshapes window 6's array; the result is the merged log-sum-exp. -/
theorem tail_eq (c : Dev nD) :
    Pipeline.afterTail₀ cfgs (dats m) 0 (V0 m) [hostOps1] c main_v1
      = attnLse (V m c main_arg0) (V m c main_arg1) (V m c main_arg3) := by
  unfold Pipeline.afterTail₀
  show StableHlo.after hostOps1 _ (Proc.devRef .tc main_v1) = _
  after_results
  rw [Pipeline.withArrays_arr spec0 launch0.win.arr_inj c _ _ 6, final6]
  exact squeeze_G6 m c _

/-- Every weakly fair execution of the kernel program terminates with its two results at the whole-array functions
    of the arguments, and the arguments unchanged. -/
theorem run : θ_run defs (onTc (τ := τ) (main (F := Ideal))) ⟨m, fun _ => 0, ρ⟩ fun r => ∀ c : Dev nD,
      r.2.mem ((c.tc : Thread nD τ).loc main_v0_0) = attnDeferred (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
      ∧ r.2.mem ((c.tc : Thread nD τ).loc main_v1) = attnLse (m ((c.tc : Thread nD τ).loc main_arg0))
          (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (final5 m c),
      ((h c).2 main_v1 v1_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c)))⟩)
    (run_main m ρ)

end Cert.KernelIdeal.Hand

end
-- ==== Proof.RefRows.lean ====
/-
  The reference program's values, read one entry at a time at the exact instance, as the row mathematics of RowSoftmax.

  For head `h` and query row `n` the reference forms, per stream, the scaled scores `score c (row (h, n) of q) (keys of
  head h)`, their row maximum, shifted exponentials, sum and log-sum-exp — `rowMax`, `rowExp`, `rowSum`, `rowLse` —,
  normalises the exponentials by the sum BEFORE multiplying with the values, merges the two log-sum-exps by `lae`, and
  weights each stream's normalised product by `exp (its log-sum-exp - merged)`: entry (h, n, d) of its first result is
  `mergedNormalised`, entry (h, n) of its second is `lae` of the two `rowLse`.
-/
import proofs.«129638_j44229573214696_2_alg».proof.Proof.Gen.ReferenceIdeal.Read
import proofs.«129638_j44229573214696_2_alg».proof.Proof.RowSoftmax

noncomputable section

open Idealize.ShloMosaic Idealize.ShloMosaic.ValueIdx Cert.RowSoftmax

namespace Cert.ReferenceIdeal.Rows

open Cert.ReferenceIdeal Cert.ReferenceIdeal.Gen Cert.ReferenceIdeal.Read

/-- The scale both programs multiply the scores by: the f32 word `0x3DB504F3`, whatever real it denotes. -/
abbrev scaleW : EReal := Ideal.ofBits .f32 0x3DB504F3#32

/-- Row `(h, n)` of the query array. -/
def qRow (x : S1x16x1024x128.Idx → EReal) (h : Fin 16) (n : Fin 1024) : Fin 128 → EReal := fun d => x (ix4 0 h n d)
/-- Head `h` of a key array, as rows. -/
def kvMat (x : S1x16x2048x128.Idx → EReal) (h : Fin 16) : Fin 2048 → Fin 128 → EReal := fun k d => x (ix4 0 h k d)
/-- Column `d` of head `h` of a value array. -/
def kvCol (x : S1x16x2048x128.Idx → EReal) (h : Fin 16) (d : Fin 128) : Fin 2048 → EReal := fun k => x (ix4 0 h k d)

variable (x0 : (⟨S1x16x1024x128, .f32⟩ : BufTy).Contents (Elt Ideal))
  (x1 x2 x3 x4 : (⟨S1x16x2048x128, .f32⟩ : BufTy).Contents (Elt Ideal))

/-- The one coordinate of a unit axis is zero. -/
theorem fin1_val (b : Fin 1) : b.val = 0 := by have := b.isLt; omega

/-- A one-operand sum into [1,16,1024] reads the row of the operand. -/
theorem lift_row (hR : S1x16x1024x2048.Reduces [3] S1x16x1024) (b : Fin 1) (h : Fin 16) (n : Fin 1024) (k : Fin 2048) :
    hR.lift (ix3 b h n) k = ix4 b h n k :=
  funext fun a => Fin.ext (by match a with | ⟨0, _⟩ => rfl | ⟨1, _⟩ => rfl | ⟨2, _⟩ => rfl | ⟨3, _⟩ => rfl)

/-! ## Stream A -/

/-! The composed index functions of the stream's layout operations, at coordinates. -/
theorem i_v4 (b : Fin 1) (h : Fin 16) (n : Fin 1024) (z : Fin 1) : idx_main_v4 (ix4 b h n z) = ix3 0 h n :=
  funext fun a => Fin.ext (by match a with | ⟨0, _⟩ => rfl | ⟨1, _⟩ => rfl | ⟨2, _⟩ => rfl)
theorem i_v5 (b : Fin 1) (h : Fin 16) (n : Fin 1024) (k : Fin 2048) : idx_main_v5 (ix4 b h n k) = ix4 0 h n 0 :=
  funext fun a => Fin.ext (by match a with | ⟨0, _⟩ => rfl | ⟨1, _⟩ => rfl | ⟨2, _⟩ => rfl | ⟨3, _⟩ => rfl)
theorem i_v8 (b : Fin 1) (h : Fin 16) (n : Fin 1024) (k : Fin 2048) : idx_main_v8 (ix3 b h n) k = ix4 b h n k :=
  funext fun a => Fin.ext (by match a with | ⟨0, _⟩ => rfl | ⟨1, _⟩ => rfl | ⟨2, _⟩ => rfl | ⟨3, _⟩ => rfl)
theorem i_v9 (b : Fin 1) (h : Fin 16) (n : Fin 1024) (z : Fin 1) : idx_main_v9 (ix4 b h n z) = ix3 0 h n :=
  funext fun a => Fin.ext (by match a with | ⟨0, _⟩ => rfl | ⟨1, _⟩ => rfl | ⟨2, _⟩ => rfl)
theorem i_v13 (b : Fin 1) (h : Fin 16) (n : Fin 1024) (k : Fin 2048) : idx_main_v13 (ix4 b h n k) = ix4 0 h n 0 :=
  funext fun a => Fin.ext (by match a with | ⟨0, _⟩ => rfl | ⟨1, _⟩ => rfl | ⟨2, _⟩ => rfl | ⟨3, _⟩ => rfl)
theorem i_v32 (b : Fin 1) (h : Fin 16) (n : Fin 1024) (z : Fin 1) : idx_main_v32 (ix4 b h n z) = ix3 0 h n :=
  funext fun a => Fin.ext (by match a with | ⟨0, _⟩ => rfl | ⟨1, _⟩ => rfl | ⟨2, _⟩ => rfl)
theorem i_v12 (h : Fin 16) (n : Fin 1024) : idx_main_v12 (ix3 0 h n) = ix4 0 h n 0 :=
  funext fun a => Fin.ext (by
    match a with
    | ⟨0, _⟩ => rfl
    | ⟨1, _⟩ => show ((0 * 16 + h.val) * 1024 + n.val) / 1024 % 16 = h.val; have := h.isLt; have := n.isLt; omega
    | ⟨2, _⟩ => show ((0 * 16 + h.val) * 1024 + n.val) / 1 % 1024 = n.val; have := h.isLt; have := n.isLt; omega
    | ⟨3, _⟩ => rfl)
theorem li_v0 (b : Fin 1) (h : Fin 16) (n : Fin 1024) (k : Fin 2048) (d : Fin 128) : lidx_main_v0 (ix4 b h n k) d = ix4 0 h n d :=
  funext fun a => Fin.ext (by
    match a with
    | ⟨0, _⟩ => exact fin1_val b
    | ⟨1, _⟩ => rfl
    | ⟨2, _⟩ => rfl
    | ⟨3, _⟩ => rfl)
theorem ri_v0 (b : Fin 1) (h : Fin 16) (n : Fin 1024) (k : Fin 2048) (d : Fin 128) : ridx_main_v0 (ix4 b h n k) d = ix4 0 h k d :=
  funext fun a => Fin.ext (by
    match a with
    | ⟨0, _⟩ => exact fin1_val b
    | ⟨1, _⟩ => rfl
    | ⟨2, _⟩ => rfl
    | ⟨3, _⟩ => rfl)
theorem li_v15 (b : Fin 1) (h : Fin 16) (n : Fin 1024) (d : Fin 128) (k : Fin 2048) : lidx_main_v15 (ix4 b h n d) k = ix4 b h n k :=
  funext fun a => Fin.ext (by match a with | ⟨0, _⟩ => rfl | ⟨1, _⟩ => rfl | ⟨2, _⟩ => rfl | ⟨3, _⟩ => rfl)
theorem ri_v15 (b : Fin 1) (h : Fin 16) (n : Fin 1024) (d : Fin 128) (k : Fin 2048) : ridx_main_v15 (ix4 b h n d) k = ix4 0 h k d :=
  funext fun a => Fin.ext (by
    match a with
    | ⟨0, _⟩ => exact fin1_val b
    | ⟨1, _⟩ => rfl
    | ⟨2, _⟩ => rfl
    | ⟨3, _⟩ => rfl)

/-- The scaled scores. -/
theorem scoresA (b : Fin 1) (h : Fin 16) (n : Fin 1024) (k : Fin 2048) :
    val_main_v2 (F := Ideal) x0 x1 (ix4 b h n k) = score scaleW (qRow x0 h n) (kvMat x1 h) k := by
  rw [val_main_v2_apply, Ideal.mulf_def, val_main_v0_apply, val_main_v1_apply, val_main_cst_apply, Ideal.ofBits_def]
  simp only [li_v0, ri_v0]
  rfl

/-- The row maximum. -/
theorem maxA (b : Fin 1) (h : Fin 16) (n : Fin 1024) :
    val_main_v3 (F := Ideal) x0 x1 (ix3 b h n) = rowMax (score scaleW (qRow x0 h n) (kvMat x1 h)) := by
  have hR : S1x16x1024x2048.Reduces [3] S1x16x1024 := by decide
  unfold val_main_v3
  rw [Host.reduce_eq_fold_single FloatOps.maximumf _ _ reducesTo_S1x16x1024x2048_S1x16x1024_d3 hR h_S_ (ix3 b h n)]
  show (Finset.univ : Finset (Fin 2048)).fold max (Ideal.ofBits .f32 0xFF800000#32)
      (val_main_v2 (F := Ideal) x0 x1 ∘ hR.lift (ix3 b h n)) = _
  unfold rowMax
  refine congrArg (fun f => (Finset.univ : Finset (Fin 2048)).fold max (Ideal.ofBits .f32 0xFF800000#32) f) (funext fun (k : Fin 2048) => ?_)
  exact (congrArg (val_main_v2 (F := Ideal) x0 x1) (lift_row hR b h n k)).trans (scoresA x0 x1 b h n k)

/-- The row maximum as the keepdims column. -/
theorem maxColA (b : Fin 1) (h : Fin 16) (n : Fin 1024) (z : Fin 1) :
    val_main_v4 (F := Ideal) x0 x1 (ix4 b h n z) = rowMax (score scaleW (qRow x0 h n) (kvMat x1 h)) := by
  rw [val_main_v4_apply, i_v4, maxA]

/-- The shifted exponentials. -/
theorem expA (b : Fin 1) (h : Fin 16) (n : Fin 1024) (k : Fin 2048) :
    val_main_v7 (F := Ideal) x0 x1 (ix4 b h n k) = rowExp (score scaleW (qRow x0 h n) (kvMat x1 h)) k := by
  rw [val_main_v7_apply, Ideal.hostUnary_exp_def, val_main_v6_apply, Ideal.subf_def, scoresA, val_main_v5_apply,
    i_v5, maxColA]
  rfl

/-- The sum of the exponentials. -/
theorem sumA (b : Fin 1) (h : Fin 16) (n : Fin 1024) :
    val_main_v8 (F := Ideal) x0 x1 (ix3 b h n) = rowSum (score scaleW (qRow x0 h n) (kvMat x1 h)) := by
  rw [val_main_v8_apply, val_main_cst_1_apply, Ideal.ofBits_def, Ideal.ofBits_zero_f32, zero_add]
  simp only [i_v8, expA]
  rfl

/-- The sum as the keepdims column. -/
theorem sumColA (b : Fin 1) (h : Fin 16) (n : Fin 1024) (z : Fin 1) :
    val_main_v9 (F := Ideal) x0 x1 (ix4 b h n z) = rowSum (score scaleW (qRow x0 h n) (kvMat x1 h)) := by
  rw [val_main_v9_apply, i_v9, sumA]

/-- The log-sum-exp column. -/
theorem lseColA (b : Fin 1) (h : Fin 16) (n : Fin 1024) (z : Fin 1) :
    val_main_v11 (F := Ideal) x0 x1 (ix4 b h n z) = rowLse (score scaleW (qRow x0 h n) (kvMat x1 h)) := by
  rw [val_main_v11_apply, Ideal.addf_def, val_main_v10_apply, Ideal.hostUnary_log_def, maxColA, sumColA]
  rfl

/-- The log-sum-exp, squeezed and re-expanded: still the row's. -/
theorem lseBackA (b : Fin 1) (h : Fin 16) (n : Fin 1024) (z : Fin 1) :
    val_main_v32 (F := Ideal) x0 x1 (ix4 b h n z) = rowLse (score scaleW (qRow x0 h n) (kvMat x1 h)) := by
  rw [val_main_v32_apply, i_v32, val_main_v12_apply, i_v12, lseColA]

/-- The normalised probabilities. -/
theorem probA (b : Fin 1) (h : Fin 16) (n : Fin 1024) (k : Fin 2048) :
    val_main_v14 (F := Ideal) x0 x1 (ix4 b h n k)
      = Ideal.div (rowExp (score scaleW (qRow x0 h n) (kvMat x1 h)) k) (rowSum (score scaleW (qRow x0 h n) (kvMat x1 h))) := by
  rw [val_main_v14_apply, Ideal.hostDivf_def, expA, val_main_v13_apply, i_v13, sumColA]

/-- The normalised probabilities times the values. -/
theorem pvA (b : Fin 1) (h : Fin 16) (n : Fin 1024) (d : Fin 128) :
    val_main_v15 (F := Ideal) x0 x1 x2 (ix4 b h n d)
      = ∑ k : Fin 2048, Ideal.div (rowExp (score scaleW (qRow x0 h n) (kvMat x1 h)) k) (rowSum (score scaleW (qRow x0 h n) (kvMat x1 h))) * kvCol x2 h d k := by
  rw [val_main_v15_apply]
  simp only [li_v15, ri_v15, probA]
  rfl

/-! ## Stream B -/

/-! The composed index functions of the stream's layout operations, at coordinates. -/
theorem i_v20 (b : Fin 1) (h : Fin 16) (n : Fin 1024) (z : Fin 1) : idx_main_v20 (ix4 b h n z) = ix3 0 h n :=
  funext fun a => Fin.ext (by match a with | ⟨0, _⟩ => rfl | ⟨1, _⟩ => rfl | ⟨2, _⟩ => rfl)
theorem i_v21 (b : Fin 1) (h : Fin 16) (n : Fin 1024) (k : Fin 2048) : idx_main_v21 (ix4 b h n k) = ix4 0 h n 0 :=
  funext fun a => Fin.ext (by match a with | ⟨0, _⟩ => rfl | ⟨1, _⟩ => rfl | ⟨2, _⟩ => rfl | ⟨3, _⟩ => rfl)
theorem i_v24 (b : Fin 1) (h : Fin 16) (n : Fin 1024) (k : Fin 2048) : idx_main_v24 (ix3 b h n) k = ix4 b h n k :=
  funext fun a => Fin.ext (by match a with | ⟨0, _⟩ => rfl | ⟨1, _⟩ => rfl | ⟨2, _⟩ => rfl | ⟨3, _⟩ => rfl)
theorem i_v25 (b : Fin 1) (h : Fin 16) (n : Fin 1024) (z : Fin 1) : idx_main_v25 (ix4 b h n z) = ix3 0 h n :=
  funext fun a => Fin.ext (by match a with | ⟨0, _⟩ => rfl | ⟨1, _⟩ => rfl | ⟨2, _⟩ => rfl)
theorem i_v29 (b : Fin 1) (h : Fin 16) (n : Fin 1024) (k : Fin 2048) : idx_main_v29 (ix4 b h n k) = ix4 0 h n 0 :=
  funext fun a => Fin.ext (by match a with | ⟨0, _⟩ => rfl | ⟨1, _⟩ => rfl | ⟨2, _⟩ => rfl | ⟨3, _⟩ => rfl)
theorem i_v33 (b : Fin 1) (h : Fin 16) (n : Fin 1024) (z : Fin 1) : idx_main_v33 (ix4 b h n z) = ix3 0 h n :=
  funext fun a => Fin.ext (by match a with | ⟨0, _⟩ => rfl | ⟨1, _⟩ => rfl | ⟨2, _⟩ => rfl)
theorem i_v28 (h : Fin 16) (n : Fin 1024) : idx_main_v28 (ix3 0 h n) = ix4 0 h n 0 :=
  funext fun a => Fin.ext (by
    match a with
    | ⟨0, _⟩ => rfl
    | ⟨1, _⟩ => show ((0 * 16 + h.val) * 1024 + n.val) / 1024 % 16 = h.val; have := h.isLt; have := n.isLt; omega
    | ⟨2, _⟩ => show ((0 * 16 + h.val) * 1024 + n.val) / 1 % 1024 = n.val; have := h.isLt; have := n.isLt; omega
    | ⟨3, _⟩ => rfl)
theorem li_v16 (b : Fin 1) (h : Fin 16) (n : Fin 1024) (k : Fin 2048) (d : Fin 128) : lidx_main_v16 (ix4 b h n k) d = ix4 0 h n d :=
  funext fun a => Fin.ext (by
    match a with
    | ⟨0, _⟩ => exact fin1_val b
    | ⟨1, _⟩ => rfl
    | ⟨2, _⟩ => rfl
    | ⟨3, _⟩ => rfl)
theorem ri_v16 (b : Fin 1) (h : Fin 16) (n : Fin 1024) (k : Fin 2048) (d : Fin 128) : ridx_main_v16 (ix4 b h n k) d = ix4 0 h k d :=
  funext fun a => Fin.ext (by
    match a with
    | ⟨0, _⟩ => exact fin1_val b
    | ⟨1, _⟩ => rfl
    | ⟨2, _⟩ => rfl
    | ⟨3, _⟩ => rfl)
theorem li_v31 (b : Fin 1) (h : Fin 16) (n : Fin 1024) (d : Fin 128) (k : Fin 2048) : lidx_main_v31 (ix4 b h n d) k = ix4 b h n k :=
  funext fun a => Fin.ext (by match a with | ⟨0, _⟩ => rfl | ⟨1, _⟩ => rfl | ⟨2, _⟩ => rfl | ⟨3, _⟩ => rfl)
theorem ri_v31 (b : Fin 1) (h : Fin 16) (n : Fin 1024) (d : Fin 128) (k : Fin 2048) : ridx_main_v31 (ix4 b h n d) k = ix4 0 h k d :=
  funext fun a => Fin.ext (by
    match a with
    | ⟨0, _⟩ => exact fin1_val b
    | ⟨1, _⟩ => rfl
    | ⟨2, _⟩ => rfl
    | ⟨3, _⟩ => rfl)

/-- The scaled scores. -/
theorem scoresB (b : Fin 1) (h : Fin 16) (n : Fin 1024) (k : Fin 2048) :
    val_main_v18 (F := Ideal) x0 x3 (ix4 b h n k) = score scaleW (qRow x0 h n) (kvMat x3 h) k := by
  rw [val_main_v18_apply, Ideal.mulf_def, val_main_v16_apply, val_main_v17_apply, val_main_cst_2_apply, Ideal.ofBits_def]
  simp only [li_v16, ri_v16]
  rfl

/-- The row maximum. -/
theorem maxB (b : Fin 1) (h : Fin 16) (n : Fin 1024) :
    val_main_v19 (F := Ideal) x0 x3 (ix3 b h n) = rowMax (score scaleW (qRow x0 h n) (kvMat x3 h)) := by
  have hR : S1x16x1024x2048.Reduces [3] S1x16x1024 := by decide
  unfold val_main_v19
  rw [Host.reduce_eq_fold_single FloatOps.maximumf _ _ reducesTo_S1x16x1024x2048_S1x16x1024_d3 hR h_S_ (ix3 b h n)]
  show (Finset.univ : Finset (Fin 2048)).fold max (Ideal.ofBits .f32 0xFF800000#32)
      (val_main_v18 (F := Ideal) x0 x3 ∘ hR.lift (ix3 b h n)) = _
  unfold rowMax
  refine congrArg (fun f => (Finset.univ : Finset (Fin 2048)).fold max (Ideal.ofBits .f32 0xFF800000#32) f) (funext fun (k : Fin 2048) => ?_)
  exact (congrArg (val_main_v18 (F := Ideal) x0 x3) (lift_row hR b h n k)).trans (scoresB x0 x3 b h n k)

/-- The row maximum as the keepdims column. -/
theorem maxColB (b : Fin 1) (h : Fin 16) (n : Fin 1024) (z : Fin 1) :
    val_main_v20 (F := Ideal) x0 x3 (ix4 b h n z) = rowMax (score scaleW (qRow x0 h n) (kvMat x3 h)) := by
  rw [val_main_v20_apply, i_v20, maxB]

/-- The shifted exponentials. -/
theorem expB (b : Fin 1) (h : Fin 16) (n : Fin 1024) (k : Fin 2048) :
    val_main_v23 (F := Ideal) x0 x3 (ix4 b h n k) = rowExp (score scaleW (qRow x0 h n) (kvMat x3 h)) k := by
  rw [val_main_v23_apply, Ideal.hostUnary_exp_def, val_main_v22_apply, Ideal.subf_def, scoresB, val_main_v21_apply,
    i_v21, maxColB]
  rfl

/-- The sum of the exponentials. -/
theorem sumB (b : Fin 1) (h : Fin 16) (n : Fin 1024) :
    val_main_v24 (F := Ideal) x0 x3 (ix3 b h n) = rowSum (score scaleW (qRow x0 h n) (kvMat x3 h)) := by
  rw [val_main_v24_apply, val_main_cst_4_apply, Ideal.ofBits_def, Ideal.ofBits_zero_f32, zero_add]
  simp only [i_v24, expB]
  rfl

/-- The sum as the keepdims column. -/
theorem sumColB (b : Fin 1) (h : Fin 16) (n : Fin 1024) (z : Fin 1) :
    val_main_v25 (F := Ideal) x0 x3 (ix4 b h n z) = rowSum (score scaleW (qRow x0 h n) (kvMat x3 h)) := by
  rw [val_main_v25_apply, i_v25, sumB]

/-- The log-sum-exp column. -/
theorem lseColB (b : Fin 1) (h : Fin 16) (n : Fin 1024) (z : Fin 1) :
    val_main_v27 (F := Ideal) x0 x3 (ix4 b h n z) = rowLse (score scaleW (qRow x0 h n) (kvMat x3 h)) := by
  rw [val_main_v27_apply, Ideal.addf_def, val_main_v26_apply, Ideal.hostUnary_log_def, maxColB, sumColB]
  rfl

/-- The log-sum-exp, squeezed and re-expanded: still the row's. -/
theorem lseBackB (b : Fin 1) (h : Fin 16) (n : Fin 1024) (z : Fin 1) :
    val_main_v33 (F := Ideal) x0 x3 (ix4 b h n z) = rowLse (score scaleW (qRow x0 h n) (kvMat x3 h)) := by
  rw [val_main_v33_apply, i_v33, val_main_v28_apply, i_v28, lseColB]

/-- The normalised probabilities. -/
theorem probB (b : Fin 1) (h : Fin 16) (n : Fin 1024) (k : Fin 2048) :
    val_main_v30 (F := Ideal) x0 x3 (ix4 b h n k)
      = Ideal.div (rowExp (score scaleW (qRow x0 h n) (kvMat x3 h)) k) (rowSum (score scaleW (qRow x0 h n) (kvMat x3 h))) := by
  rw [val_main_v30_apply, Ideal.hostDivf_def, expB, val_main_v29_apply, i_v29, sumColB]

/-- The normalised probabilities times the values. -/
theorem pvB (b : Fin 1) (h : Fin 16) (n : Fin 1024) (d : Fin 128) :
    val_main_v31 (F := Ideal) x0 x3 x4 (ix4 b h n d)
      = ∑ k : Fin 2048, Ideal.div (rowExp (score scaleW (qRow x0 h n) (kvMat x3 h)) k) (rowSum (score scaleW (qRow x0 h n) (kvMat x3 h))) * kvCol x4 h d k := by
  rw [val_main_v31_apply]
  simp only [li_v31, ri_v31, probB]
  rfl

/-! ## The merge -/

theorem i_v48 (b : Fin 1) (h : Fin 16) (n : Fin 1024) (d : Fin 128) : idx_main_v48 (ix4 b h n d) = ix4 0 h n 0 :=
  funext fun a => Fin.ext (by match a with | ⟨0, _⟩ => rfl | ⟨1, _⟩ => rfl | ⟨2, _⟩ => rfl | ⟨3, _⟩ => rfl)
theorem i_v50 (b : Fin 1) (h : Fin 16) (n : Fin 1024) (d : Fin 128) : idx_main_v50 (ix4 b h n d) = ix4 0 h n 0 :=
  funext fun a => Fin.ext (by match a with | ⟨0, _⟩ => rfl | ⟨1, _⟩ => rfl | ⟨2, _⟩ => rfl | ⟨3, _⟩ => rfl)
theorem i_v53 (b : Fin 1) (h : Fin 16) (n : Fin 1024) : idx_main_v53 (ix3 b h n) = ix4 0 h n 0 :=
  funext fun a => Fin.ext (by
    match a with
    | ⟨0, _⟩ => rfl
    | ⟨1, _⟩ => show ((b.val * 16 + h.val) * 1024 + n.val) / 1024 % 16 = h.val; have := b.isLt; have := h.isLt; have := n.isLt; omega
    | ⟨2, _⟩ => show ((b.val * 16 + h.val) * 1024 + n.val) / 1 % 1024 = n.val; have := b.isLt; have := h.isLt; have := n.isLt; omega
    | ⟨3, _⟩ => rfl)

/-- The merged log-sum-exp column. -/
theorem merged (b : Fin 1) (h : Fin 16) (n : Fin 1024) (z : Fin 1) :
    val_main_v43 (F := Ideal) x0 x1 x3 (ix4 b h n z)
      = lae (rowLse (score scaleW (qRow x0 h n) (kvMat x1 h))) (rowLse (score scaleW (qRow x0 h n) (kvMat x3 h))) := by
  rw [val_main_v43_apply, val_main_v36_apply, val_main_v37_apply, val_main_v42_apply, val_main_v34_apply, val_main_v41_apply,
    val_main_v40_apply, val_main_v39_apply, val_main_v38_apply, val_main_v35_apply, lseBackA, lseBackB]
  simp only [Ideal.cmpf_def, Ideal.subf_def, Ideal.addf_def, Ideal.maximumf_def, Ideal.hostUnary_log1p_def, Ideal.hostUnary_exp_def,
    Ideal.hostNegf_def, Ideal.negf_def, Ideal.hostAbsf_def, Ideal.absf_def]
  exact lae_of_une _ _

/-- Stream A's weight `exp (its log-sum-exp - merged)`. -/
theorem weightA (b : Fin 1) (h : Fin 16) (n : Fin 1024) (d : Fin 128) :
    val_main_v48 (F := Ideal) x0 x1 x3 (ix4 b h n d)
      = Ideal.exp (rowLse (score scaleW (qRow x0 h n) (kvMat x1 h))
          - lae (rowLse (score scaleW (qRow x0 h n) (kvMat x1 h))) (rowLse (score scaleW (qRow x0 h n) (kvMat x3 h)))) := by
  rw [val_main_v48_apply, i_v48, val_main_v45_apply, Ideal.hostUnary_exp_def, val_main_v44_apply, Ideal.subf_def, lseBackA, merged]

/-- Stream B's weight. -/
theorem weightB (b : Fin 1) (h : Fin 16) (n : Fin 1024) (d : Fin 128) :
    val_main_v50 (F := Ideal) x0 x1 x3 (ix4 b h n d)
      = Ideal.exp (rowLse (score scaleW (qRow x0 h n) (kvMat x3 h))
          - lae (rowLse (score scaleW (qRow x0 h n) (kvMat x1 h))) (rowLse (score scaleW (qRow x0 h n) (kvMat x3 h)))) := by
  rw [val_main_v50_apply, i_v50, val_main_v47_apply, Ideal.hostUnary_exp_def, val_main_v46_apply, Ideal.subf_def, lseBackB, merged]

/-- Entry (h, n, d) of the reference's first result: the merged attention entry, probabilities normalised first. -/
theorem out_entry (b : Fin 1) (h : Fin 16) (n : Fin 1024) (d : Fin 128) :
    val_main_v52 (F := Ideal) x0 x1 x2 x3 x4 (ix4 b h n d)
      = mergedNormalised (score scaleW (qRow x0 h n) (kvMat x1 h)) (score scaleW (qRow x0 h n) (kvMat x3 h)) (kvCol x2 h d) (kvCol x4 h d) := by
  rw [val_main_v52_apply, Ideal.addf_def, val_main_v49_apply, val_main_v51_apply, Ideal.mulf_def, Ideal.mulf_def,
    pvA, pvB, weightA, weightB]
  rfl

/-- Entry (h, n) of the reference's second result: `logaddexp` of the two streams' log-sum-exps. -/
theorem lse_entry (b : Fin 1) (h : Fin 16) (n : Fin 1024) :
    val_main_v53 (F := Ideal) x0 x1 x3 (ix3 b h n)
      = lae (rowLse (score scaleW (qRow x0 h n) (kvMat x1 h))) (rowLse (score scaleW (qRow x0 h n) (kvMat x3 h))) := by
  rw [val_main_v53_apply, i_v53, merged]

end Cert.ReferenceIdeal.Rows

end
-- ==== Proof.RefValue.lean ====
/-
  The reference's two results as functions of the whole argument arrays: the first is the attention with the
  probabilities normalised first, the second the merged log-sum-exp — the entry-by-entry readings of RefRows, collected.
-/
import proofs.«129638_j44229573214696_2_alg».proof.Proof.RefRows
import proofs.«129638_j44229573214696_2_alg».proof.Proof.Attention

noncomputable section

open Idealize.ShloMosaic Idealize.ShloMosaic.ValueIdx Cert.RowSoftmax Cert.Attention

namespace Cert.ReferenceIdeal.Rows

open Cert.ReferenceIdeal Cert.ReferenceIdeal.Gen Cert.ReferenceIdeal.Read

variable (x0 : (⟨S1x16x1024x128, .f32⟩ : BufTy).Contents (Elt Ideal))
  (x1 x2 x3 x4 : (⟨S1x16x2048x128, .f32⟩ : BufTy).Contents (Elt Ideal))

/-- The reference's first result is the normalised attention of the arrays. -/
theorem out_array : val_main_v52 (F := Ideal) x0 x1 x2 x3 x4 = attnNormalised x0 x1 x2 x3 x4 := by
  funext i
  obtain ⟨b, h, n, d, rfl⟩ : ∃ (b : Fin 1) (h : Fin 16) (n : Fin 1024) (d : Fin 128), i = ix4 b h n d :=
    ⟨i 0, i 1, i 2, i 3, eq_ix4 i⟩
  rw [out_entry]
  rfl

/-- The reference's second result is the merged log-sum-exp of the arrays. -/
theorem lse_array : val_main_v53 (F := Ideal) x0 x1 x3 = attnLse x0 x1 x3 := by
  funext i
  obtain ⟨b, h, n, rfl⟩ : ∃ (b : Fin 1) (h : Fin 16) (n : Fin 1024), i = ix3 b h n := ⟨i 0, i 1, i 2, eq_ix3 i⟩
  rw [lse_entry]
  rfl

end Cert.ReferenceIdeal.Rows

end
-- ==== Proof.FiniteInputs.lean ====
/-
  The precondition, decoded: every entry of every argument array is a real number.

  The printed predicate is the conjunction, over the five arrays, of "all entries satisfy |x| < +∞"; each "all" is a
  reduction by `and` to one bit, and the conjunction is a chain of four `and`s of those bits. An extended real whose
  absolute value `max x (-x)` is below `+∞` is neither infinity, so it is a real.
-/
import proofs.«129638_j44229573214696_2_alg».proof.Pre_finite_inputs
import Idealize.ShloMosaic.PureOps.Ideal
import Idealize.ShloMosaic.PureOps.Ideal.Laws
import Idealize.ShloMosaic.Lib.ReduceAll
import Idealize.ShloMosaic.Lib.Affine
import Idealize.ShloMosaic.Lib.ValueIdx

noncomputable section

open Idealize.ShloMosaic Idealize.ShloMosaic.ValueIdx

namespace Cert.Pre_finite_inputs.Decode

open Cert.Pre_finite_inputs

/-- The rank-0 shape has one index. -/
instance : Subsingleton S_.Idx := ⟨fun a b => funext fun d => d.elim0⟩

/-- The word `0x7F800000` is `+∞`. -/
theorem posInf_eq : Ideal.ofBits .f32 0x7F800000#32 = (⊤ : EReal) := by
  simp [Ideal.ofBits, Ideal.ieee]

/-- An extended real with `|x| < +∞` is a real. -/
theorem real_of_abs_lt (x : EReal) (h : Ideal.cmp .olt (max x (-x)) (Ideal.ofBits .f32 0x7F800000#32) = 1#1) :
    ∃ r : ℝ, x = r := by
  rw [posInf_eq] at h
  induction x using EReal.rec with
  | bot => simp [Ideal.cmp] at h
  | top => simp [Ideal.cmp] at h
  | coe r => exact ⟨r, rfl⟩

/-- One array: if "all entries have |x| < +∞" reduces to 1, every entry is a real. -/
theorem all_real {s : Shape} {axes : List (Fin s.rank)} (a : FVec Ideal s .f32)
    (hb : S_.BroadcastsInDim s (![] : Fin 0 → Fin s.rank)) (hr : s.ReducesTo axes S_) (hu : 0 < S_.numel)
    (h : Host.reduce IntOp.andi (cmpf .olt (Host.absf a) (broadcastInDim s ![] hb (constant (F := Ideal) S_ .f32 0x7F800000#32)))
        (constantI S_ 1 1#1) hr hu ix0 = 1#1) : ∀ i, ∃ r : ℝ, a i = r := by
  intro i
  have hi := Host.reduce_andi_all _ _ hr hu ix0 h i
  exact real_of_abs_lt (a i) hi

/-- The chain of four `and`s at its one index is 1 only if each of the five bits is. -/
theorem and5 (r0 r1 r2 r3 r4 : IVec S_ 1) (h : andi (andi (andi (andi r0 r1) r2) r3) r4 ix0 = 1#1) :
    r0 ix0 = 1#1 ∧ r1 ix0 = 1#1 ∧ r2 ix0 = 1#1 ∧ r3 ix0 = 1#1 ∧ r4 ix0 = 1#1 := by
  obtain ⟨h', h4⟩ := IntOp.andi_eq_one.mp h
  obtain ⟨h'', h3⟩ := IntOp.andi_eq_one.mp h'
  obtain ⟨h''', h2⟩ := IntOp.andi_eq_one.mp h''
  obtain ⟨h0, h1⟩ := IntOp.andi_eq_one.mp h'''
  exact ⟨h0, h1, h2, h3, h4⟩

variable [Facts]

/-- The precondition at the exact instance gives five arrays of real numbers. -/
theorem reals_of_pre (a0 : FVec Ideal S1x16x1024x128 .f32) (a1 a2 a3 a4 : FVec Ideal S1x16x2048x128 .f32)
    (h : fn (F := Ideal) a0 a1 a2 a3 a4 = fun _ => 1#1) :
    (∀ i, ∃ r : ℝ, a0 i = r) ∧ (∀ i, ∃ r : ℝ, a1 i = r) ∧ (∀ i, ∃ r : ℝ, a2 i = r) ∧ (∀ i, ∃ r : ℝ, a3 i = r)
      ∧ (∀ i, ∃ r : ℝ, a4 i = r) := by
  have h0 : fn (F := Ideal) a0 a1 a2 a3 a4 ix0 = 1#1 := congrFun h ix0
  obtain ⟨e0, e1, e2, e3, e4⟩ := and5 _ _ _ _ _ h0
  exact ⟨all_real a0 _ _ _ e0, all_real a1 _ _ _ e1, all_real a2 _ _ _ e2, all_real a3 _ _ _ e3, all_real a4 _ _ _ e4⟩

end Cert.Pre_finite_inputs.Decode

end
-- ==== Proof.lean ====
/-
  Two attentions over disjoint key / value streams A and B that share one query, merged by their log-sum-exps — the
  Pallas kernel against its jnp reference, as extended reals.

  For each head and query row, with scaled scores `s` of a stream, `μ = max s`, `e = exp (s - μ)`, `σ = Σ e`,
  `lse = μ + log σ` and `L = logaddexp lse_A lse_B`, the kernel returns `(Σ e_A v_A) · exp (μ_A - L) + (Σ e_B v_B) · exp (μ_B - L)`
  (the normaliser `1 / σ` deferred into the merge weight), the reference `(Σ (e_A / σ_A) v_A) · exp (lse_A - L) + …`;
  both also return `L`. The two programs scale the scores by the same f32 word, take the same maxima, exponentials,
  sums and logarithms, and write `logaddexp` with the same operations, so `L` is one term on both sides; the outputs
  differ by moving `σ` across the sum, which is an identity of real numbers (Proof/RowSoftmax.lean): `σ > 0`, and
  `exp (μ + log σ - L) = exp (μ - L) · σ`. That is where the precondition is used: finite inputs make every score and
  value a real number (Proof/FiniteInputs.lean).

  The kernel's side: the body's values entry by entry (Proof/BodyOps.lean, Proof/BodyRows.lean), a grid point's blocks as
  rows of the arrays (Proof/KernelBlocks.lean), the blocks assembled into the result arrays and the host's reshape
  (Proof/KernelValue.lean, Proof/KernelRun.lean). The reference's side: its operations entry by entry over its run
  (Proof/RefRows.lean, Proof/RefValue.lean). The whole-array functions both meet at are in Proof/Attention.lean.
-/
import proofs.«129638_j44229573214696_2_alg».proof.Defs
import proofs.«129638_j44229573214696_2_alg».proof.Proof.Gen.Kernel
import proofs.«129638_j44229573214696_2_alg».proof.Proof.Gen.Kernel.Skeleton
import proofs.«129638_j44229573214696_2_alg».proof.Proof.Gen.Kernel.Launch
import proofs.«129638_j44229573214696_2_alg».proof.Proof.Gen.Kernel.Points
import proofs.«129638_j44229573214696_2_alg».proof.Proof.Gen.Kernel.Frame
import proofs.«129638_j44229573214696_2_alg».proof.Proof.Gen.KernelIdeal
import proofs.«129638_j44229573214696_2_alg».proof.Proof.Gen.KernelIdeal.Skeleton
import proofs.«129638_j44229573214696_2_alg».proof.Proof.Gen.KernelIdeal.Launch
import proofs.«129638_j44229573214696_2_alg».proof.Proof.Gen.KernelIdeal.Points
import proofs.«129638_j44229573214696_2_alg».proof.Proof.Gen.KernelIdeal.Frame
import proofs.«129638_j44229573214696_2_alg».proof.Proof.Gen.ReferenceIdeal
import proofs.«129638_j44229573214696_2_alg».proof.Proof.Gen.ReferenceIdeal.Run
import proofs.«129638_j44229573214696_2_alg».proof.Proof.Gen.ReferenceIdeal.Read
import proofs.«129638_j44229573214696_2_alg».proof.Proof.Gen.Pre_finite_inputs
import proofs.«129638_j44229573214696_2_alg».proof.Proof.KernelRun
import proofs.«129638_j44229573214696_2_alg».proof.Proof.RefValue
import proofs.«129638_j44229573214696_2_alg».proof.Proof.FiniteInputs
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference runs and keeps its arguments: its generated run, the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote nothing. -/
theorem preserves : Cert.preserves_Kernel_KernelIdeal := trivial

/-- From agreeing, finite arguments both programs end with the same two arrays: the kernel at the deferred attention
    and the merged log-sum-exp of its arguments, the reference at the normalised attention and the same merged
    log-sum-exp of its own, which are those of the kernel's arguments; on real arrays the normalised and the deferred
    attention are one array. -/
theorem algebraic : Cert.algebraic_KernelIdeal_ReferenceIdeal := by
  intro m ρ m' ρ' hpre hagree
  refine ⟨_, _, Cert.KernelIdeal.Hand.run m ρ, ?_⟩
  refine (θ_run Cert.ReferenceIdeal.defs _ _).mono (fun r h c => ?_) (Cert.ReferenceIdeal.Value.run (F := Ideal) m' ρ')
  obtain ⟨a0, a1, a2, a3, a4⟩ := hagree c
  obtain ⟨f0, f1, f2, f3, f4⟩ := Cert.Pre_finite_inputs.Decode.reals_of_pre _ _ _ _ _ (hpre c)
  refine ⟨(h c).1.trans ?_, (h c).2.1.trans ?_, (h c).2.2⟩
  · rw [Cert.ReferenceIdeal.Read.val_main_v52_eq, Cert.ReferenceIdeal.Rows.out_array, a0, a1, a2, a3, a4]
    exact Cert.Attention.attnNormalised_eq _ _ _ _ _ f0 f1 f2 f3 f4
  · rw [Cert.ReferenceIdeal.Read.val_main_v53_eq, Cert.ReferenceIdeal.Rows.lse_array, a0, a1, a3]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
